-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1 : Shape := ⟨3, ![4, 8192, 1]⟩
abbrev S_ : Shape := ⟨0, ![]⟩

class Facts : Prop where
  bcast_S_S4x8192x1 : S_.BroadcastsInDim S4x8192x1 (![] : Fin 0 → Fin S4x8192x1.rank)
  reducesTo_S4x8192x1_S_d0_1_2 : S4x8192x1.ReducesTo [0, 1, 2] S_
  h_S_ : 0 < S_.numel
  reducesTo_S_S_d : S_.ReducesTo [] S_

variable [Facts]

def fn_part3 {F : FTy → Type} [FloatOps F] (main_v44 : IVec S_ 1) (main_v47 : IVec S_ 1) : IVec S_ 1 :=
  let main_v48 : IVec S_ 1 := andi main_v44 main_v47
  main_v48

def fn_part2 {F : FTy → Type} [FloatOps F] (main_arg8 : FVec F S_ .f32) (main_arg9 : FVec F S_ .f32) (main_arg10 : FVec F S_ .f32) (main_arg11 : FVec F S_ .f32) (main_v28 : IVec S_ 1) (main_v31 : IVec S_ 1) : IVec S_ 1 :=
  let main_v32 : IVec S_ 1 := andi main_v28 main_v31
  let main_v33 : FVec F S_ .f32 := Host.absf main_arg8
  let main_cst_14 : FVec F S_ .f32 := constant S_ .f32 0x7F800000#32
  let main_v34 : IVec S_ 1 := cmpf .olt main_v33 main_cst_14
  let main_c_15 : IVec S_ 1 := constantI S_ 1 1#1
  let main_v35 : IVec S_ 1 := (fun x v => Host.reduce IntOp.andi x v reducesTo_S_S_d h_S_) main_v34 main_c_15
  let main_v36 : IVec S_ 1 := andi main_v32 main_v35
  let main_v37 : FVec F S_ .f32 := Host.absf main_arg9
  let main_cst_16 : FVec F S_ .f32 := constant S_ .f32 0x7F800000#32
  let main_v38 : IVec S_ 1 := cmpf .olt main_v37 main_cst_16
  let main_c_17 : IVec S_ 1 := constantI S_ 1 1#1
  let main_v39 : IVec S_ 1 := (fun x v => Host.reduce IntOp.andi x v reducesTo_S_S_d h_S_) main_v38 main_c_17
  let main_v40 : IVec S_ 1 := andi main_v36 main_v39
  let main_v41 : FVec F S_ .f32 := Host.absf main_arg10
  let main_cst_18 : FVec F S_ .f32 := constant S_ .f32 0x7F800000#32
  let main_v42 : IVec S_ 1 := cmpf .olt main_v41 main_cst_18
  let main_c_19 : IVec S_ 1 := constantI S_ 1 1#1
  let main_v43 : IVec S_ 1 := (fun x v => Host.reduce IntOp.andi x v reducesTo_S_S_d h_S_) main_v42 main_c_19
  let main_v44 : IVec S_ 1 := andi main_v40 main_v43
  let main_v45 : FVec F S_ .f32 := Host.absf main_arg11
  let main_cst_20 : FVec F S_ .f32 := constant S_ .f32 0x7F800000#32
  let main_v46 : IVec S_ 1 := cmpf .olt main_v45 main_cst_20
  let main_c_21 : IVec S_ 1 := constantI S_ 1 1#1
  let main_v47 : IVec S_ 1 := (fun x v => Host.reduce IntOp.andi x v reducesTo_S_S_d h_S_) main_v46 main_c_21
  fn_part3 (F := F) main_v44 main_v47

def fn_part1 {F : FTy → Type} [FloatOps F] (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) (main_arg11 : FVec F S_ .f32) (main_v12 : IVec S_ 1) (main_v15 : IVec S_ 1) : IVec S_ 1 :=
  let main_v16 : IVec S_ 1 := andi main_v12 main_v15
  let main_v17 : FVec F S_ .f32 := Host.absf main_arg4
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  let main_v21 : FVec F S_ .f32 := Host.absf main_arg5
  let main_cst_8 : FVec F S_ .f32 := constant S_ .f32 0x7F800000#32
  let main_v22 : IVec S_ 1 := cmpf .olt main_v21 main_cst_8
  let main_c_9 : IVec S_ 1 := constantI S_ 1 1#1
  let main_v23 : IVec S_ 1 := (fun x v => Host.reduce IntOp.andi x v reducesTo_S_S_d h_S_) main_v22 main_c_9
  let main_v24 : IVec S_ 1 := andi main_v20 main_v23
  let main_v25 : FVec F S_ .f32 := Host.absf main_arg6
  let main_cst_10 : FVec F S_ .f32 := constant S_ .f32 0x7F800000#32
  let main_v26 : IVec S_ 1 := cmpf .olt main_v25 main_cst_10
  let main_c_11 : IVec S_ 1 := constantI S_ 1 1#1
  let main_v27 : IVec S_ 1 := (fun x v => Host.reduce IntOp.andi x v reducesTo_S_S_d h_S_) main_v26 main_c_11
  let main_v28 : IVec S_ 1 := andi main_v24 main_v27
  let main_v29 : FVec F S_ .f32 := Host.absf main_arg7
  let main_cst_12 : FVec F S_ .f32 := constant S_ .f32 0x7F800000#32
  let main_v30 : IVec S_ 1 := cmpf .olt main_v29 main_cst_12
  let main_c_13 : IVec S_ 1 := constantI S_ 1 1#1
  let main_v31 : IVec S_ 1 := (fun x v => Host.reduce IntOp.andi x v reducesTo_S_S_d h_S_) main_v30 main_c_13
  fn_part2 (F := F) main_arg8 main_arg9 main_arg10 main_arg11 main_v28 main_v31

def fn {F : FTy → Type} [FloatOps F] (main_arg0 : FVec F S4x8192x1 .f32) (main_arg1 : FVec F S4x8192x1 .f32) (main_arg2 : FVec F S_ .f32) (main_arg3 : FVec F S_ .f32) (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) (main_arg11 : FVec F S_ .f32) : IVec S_ 1 :=
  let main_v0 : FVec F S4x8192x1 .f32 := Host.absf main_arg0
  let main_cst : FVec F S_ .f32 := constant S_ .f32 0x7F800000#32
  let main_v1 : FVec F S4x8192x1 .f32 := broadcastInDim S4x8192x1 ![] bcast_S_S4x8192x1 main_cst
  let main_v2 : IVec S4x8192x1 1 := cmpf .olt main_v0 main_v1
  let main_c : IVec S_ 1 := constantI S_ 1 1#1
  let main_v3 : IVec S_ 1 := (fun x v => Host.reduce IntOp.andi x v reducesTo_S4x8192x1_S_d0_1_2 h_S_) main_v2 main_c
  let main_v4 : FVec F S4x8192x1 .f32 := Host.absf main_arg1
  let main_cst_0 : FVec F S_ .f32 := constant S_ .f32 0x7F800000#32
  let main_v5 : FVec F S4x8192x1 .f32 := broadcastInDim S4x8192x1 ![] bcast_S_S4x8192x1 main_cst_0
  let main_v6 : IVec S4x8192x1 1 := cmpf .olt main_v4 main_v5
  let main_c_1 : IVec S_ 1 := constantI S_ 1 1#1
  let main_v7 : IVec S_ 1 := (fun x v => Host.reduce IntOp.andi x v reducesTo_S4x8192x1_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_arg5 main_arg6 main_arg7 main_arg8 main_arg9 main_arg10 main_arg11 main_v12 main_v15
-- ==== Kernel.lean ====
abbrev S4x8192x1 : Shape := ⟨3, ![4, 8192, 1]⟩
abbrev S_ : Shape := ⟨0, ![]⟩
abbrev S4x1x8192 : Shape := ⟨3, ![4, 1, 8192]⟩
abbrev S1x2048x1 : Shape := ⟨3, ![1, 2048, 1]⟩
abbrev S1x1x2048 : Shape := ⟨3, ![1, 1, 2048]⟩
abbrev S1x1x8192 : Shape := ⟨3, ![1, 1, 8192]⟩
abbrev S2048x1 : Shape := ⟨2, ![2048, 1]⟩
abbrev S1x8192 : Shape := ⟨2, ![1, 8192]⟩
abbrev S1x2048 : Shape := ⟨2, ![1, 2048]⟩
abbrev S2048x2048 : Shape := ⟨2, ![2048, 2048]⟩
abbrev S4x1 : Shape := ⟨2, ![4, 1]⟩
abbrev S4x1x1 : Shape := ⟨3, ![4, 1, 1]⟩
abbrev S4x8192 : Shape := ⟨2, ![4, 8192]⟩

abbrev nBuf : Space → Nat
  | .hbm => 81
  | .vmem => 14
  | .smem => 0
  | _ => 0

abbrev bufTy : (tb : Table) → Fin (tcTables nBuf tb) → BufTy
  | .hbm, ⟨0, _⟩ => ⟨S4x8192x1, .f32⟩
  | .hbm, ⟨1, _⟩ => ⟨S4x8192x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x1x8192, .f32⟩
  | .hbm, ⟨13, _⟩ => ⟨S4x1x8192, .f32⟩
  | .hbm, ⟨14, _⟩ => ⟨S4x1x8192, .f32⟩
  | .hbm, ⟨15, _⟩ => ⟨S4x1x8192, .f32⟩
  | .hbm, ⟨16, _⟩ => ⟨S4x1x8192, .f32⟩
  | .hbm, ⟨17, _⟩ => ⟨S4x1x8192, .f32⟩
  | .hbm, ⟨18, _⟩ => ⟨S4x1x8192, .f32⟩
  | .hbm, ⟨19, _⟩ => ⟨S4x1x8192, .f32⟩
  | .hbm, ⟨20, _⟩ => ⟨S4x1x8192, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x1x8192, .f32⟩
  | .hbm, ⟨26, _⟩ => ⟨S4x1x8192, .f32⟩
  | .hbm, ⟨27, _⟩ => ⟨S4x1x8192, .f32⟩
  | .hbm, ⟨28, _⟩ => ⟨S4x1x8192, .f32⟩
  | .hbm, ⟨29, _⟩ => ⟨S4x1x8192, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x1, .f32⟩
  | .hbm, ⟨35, _⟩ => ⟨S4x1x8192, .f32⟩
  | .hbm, ⟨36, _⟩ => ⟨S4x8192x1, .f32⟩
  | .hbm, ⟨37, _⟩ => ⟨S4x8192x1, .f32⟩
  | .hbm, ⟨38, _⟩ => ⟨S4x1x8192, .f32⟩
  | .hbm, ⟨39, _⟩ => ⟨S4x1x8192, .f32⟩
  | .hbm, ⟨40, _⟩ => ⟨S4x8192x1, .f32⟩
  | .hbm, ⟨41, _⟩ => ⟨S4x8192x1, .f32⟩
  | .hbm, ⟨42, _⟩ => ⟨S4x8192x1, .f32⟩
  | .hbm, ⟨43, _⟩ => ⟨S4x8192x1, .f32⟩
  | .hbm, ⟨44, _⟩ => ⟨S4x1x8192, .f32⟩
  | .hbm, ⟨45, _⟩ => ⟨S4x1x8192, .f32⟩
  | .hbm, ⟨46, _⟩ => ⟨S4x1x8192, .f32⟩
  | .hbm, ⟨47, _⟩ => ⟨S4x1x8192, .f32⟩
  | .hbm, ⟨48, _⟩ => ⟨S4x8192x1, .f32⟩
  | .hbm, ⟨49, _⟩ => ⟨S_, .f32⟩
  | .hbm, ⟨50, _⟩ => ⟨S4x1, .f32⟩
  | .hbm, ⟨51, _⟩ => ⟨S_, .f32⟩
  | .hbm, ⟨52, _⟩ => ⟨S4x1, .f32⟩
  | .hbm, ⟨53, _⟩ => ⟨S4x1, .f32⟩
  | .hbm, ⟨54, _⟩ => ⟨S4x1x1, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S_, .f32⟩
  | .hbm, ⟨59, _⟩ => ⟨S4x1, .f32⟩
  | .hbm, ⟨60, _⟩ => ⟨S4x1x1, .f32⟩
  | .hbm, ⟨61, _⟩ => ⟨S4x8192x1, .f32⟩
  | .hbm, ⟨62, _⟩ => ⟨S4x8192x1, .f32⟩
  | .hbm, ⟨63, _⟩ => ⟨S_, .f32⟩
  | .hbm, ⟨64, _⟩ => ⟨S4x1, .f32⟩
  | .hbm, ⟨65, _⟩ => ⟨S_, .f32⟩
  | .hbm, ⟨66, _⟩ => ⟨S4x1, .f32⟩
  | .hbm, ⟨67, _⟩ => ⟨S4x1, .f32⟩
  | .hbm, ⟨68, _⟩ => ⟨S4x1x1, .f32⟩
  | .hbm, ⟨69, _⟩ => ⟨S4x8192x1, .f32⟩
  | .hbm, ⟨70, _⟩ => ⟨S4x8192x1, .f32⟩
  | .hbm, ⟨71, _⟩ => ⟨S4x8192x1, .f32⟩
  | .hbm, ⟨72, _⟩ => ⟨S_, .f32⟩
  | .hbm, ⟨73, _⟩ => ⟨S4x1, .f32⟩
  | .hbm, ⟨74, _⟩ => ⟨S4x1x1, .f32⟩
  | .hbm, ⟨75, _⟩ => ⟨S4x8192x1, .f32⟩
  | .hbm, ⟨76, _⟩ => ⟨S4x8192x1, .f32⟩
  | .hbm, ⟨77, _⟩ => ⟨S4x8192x1, .f32⟩
  | .hbm, ⟨78, _⟩ => ⟨S4x8192, .f32⟩
  | .hbm, ⟨79, _⟩ => ⟨S4x8192x1, .f32⟩
  | .hbm, ⟨80, _⟩ => ⟨S4x8192, .f32⟩
  | .local _ .vmem, ⟨0, _⟩ => ⟨S1x2048x1, .f32⟩
  | .local _ .vmem, ⟨1, _⟩ => ⟨S1x2048x1, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x1, .f32⟩
  | .local _ .vmem, ⟨5, _⟩ => ⟨S1x2048x1, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x1, .f32⟩
  | .local _ .vmem, ⟨9, _⟩ => ⟨S1x2048x1, .f32⟩
  | .local _ .vmem, ⟨10, _⟩ => ⟨S1x1x8192, .f32⟩
  | .local _ .vmem, ⟨11, _⟩ => ⟨S1x1x8192, .f32⟩
  | .local _ .vmem, ⟨12, _⟩ => ⟨S2048x1, .f32⟩
  | .local _ .vmem, ⟨13, _⟩ => ⟨S1x8192, .f32⟩
  | _, _ => ⟨S4x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_cst_0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_1 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_2 : Ref sig .tc := ⟨.hbm, 63, rfl⟩
abbrev main_v47 : Ref sig .tc := ⟨.hbm, 64, rfl⟩
abbrev main_cst_3 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c2048_i32 : BitVec 32 := 2048#32
  let v26 : BitVec 32 := Scalar.muli arg2 c2048_i32
  v26
def k0_off1 (i : grid0.Coords) : Fin 2 → Nat :=
  let c0_19 : Index := 0#32
  let arg2 : BitVec 32 := BitVec.ofNat 32 (i 2).val
  let c2048_i32 : BitVec 32 := 2048#32
  let v26 : BitVec 32 := Scalar.muli arg2 c2048_i32
  let v27 : BitVec 32 := v26
  let v28 : Index := Scalar.indexCast v27
  ![0, v28.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  transposes_S4x8192x1_S4x1x8192_0_2_1 : S4x8192x1.Transposes [0, 2, 1] S4x1x8192
  bcast_S_S4x1x8192 : S_.BroadcastsInDim S4x1x8192 (![] : Fin 0 → Fin S4x1x8192.rank)
  bcast_S_S4x8192x1 : S_.BroadcastsInDim S4x8192x1 (![] : Fin 0 → Fin S4x8192x1.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S2048x1_S2048x2048 : S2048x1.Broadcasts S2048x2048
  broadcasts_S1x2048_S2048x2048 : S1x2048.Broadcasts S2048x2048
  h_S1x2048 : 0 < S1x2048.numel
  shapeCasts_S1x2048_S1x2048 : S1x2048.ShapeCasts S1x2048
  shapeCasts_S2048x1_S1x2048x1 : S2048x1.ShapeCasts S1x2048x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  transposes_S4x1x8192_S4x8192x1_0_2_1 : S4x1x8192.Transposes [0, 2, 1] S4x8192x1
  reducesTo_S4x8192x1_S4x1_d1 : S4x8192x1.ReducesTo [1] S4x1
  h_S_ : 0 < S_.numel
  bcast_S_S4x1 : S_.BroadcastsInDim S4x1 (![] : Fin 0 → Fin S4x1.rank)
  bcast_S4x1_S4x1x1_0_2 : S4x1.BroadcastsInDim S4x1x1 (![0, 2] : Fin 2 → Fin S4x1x1.rank)
  bcast_S4x1x1_S4x8192x1_0_1_2 : S4x1x1.BroadcastsInDim S4x8192x1 (![0, 1, 2] : Fin 3 → Fin S4x8192x1.rank)
  shapeCasts_S4x8192x1_S4x8192 : S4x8192x1.ShapeCasts S4x8192
  dot_S2048x2048_S2048x1_S2048x1_1_0_0_1_n_n_wf : DotDims.WF S2048x2048 S2048x1 S2048x1 [1] [0] [0] [1] [] []
  dot_S1x2048_S2048x2048_S1x2048_1_0_0_1_n_n_wf : DotDims.WF S1x2048 S2048x2048 S1x2048 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S4x8192x1.size a
  hwx0_0 : ∀ i : grid0.Coords, EltTy.bits .f32 = 32 ∨ (Rect.block (s := S4x8192x1) S1x2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S4x1x8192.size a
  hwx0_1 : ∀ i : grid0.Coords, EltTy.bits .f32 = 32 ∨ (Rect.block (s := S4x1x8192) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S4x8192x1.size a
  hwx0_2 : ∀ i : grid0.Coords, EltTy.bits .f32 = 32 ∨ (Rect.block (s := S4x8192x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x8192.size a
  hwx0_3 : ∀ i : grid0.Coords, EltTy.bits .f32 = 32 ∨ (Rect.block (s := S4x1x8192) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S4x8192x1.size a
  hwx0_4 : ∀ i : grid0.Coords, EltTy.bits .f32 = 32 ∨ (Rect.block (s := S4x8192x1) S1x2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8192.size a ≤ S4x1x8192.size a
  hwx0_5 : ∀ i : grid0.Coords, EltTy.bits .f32 = 32 ∨ (Rect.block (s := S4x1x8192) S1x1x8192.size (cc0_transform_5 i) (hinb0_5 i)).WholeWords (EltTy.packing .f32)

variable [Facts₀]

def dot_S2048x2048_S2048x1_S2048x1_1_0_0_1_n_n : DotDims S2048x2048 S2048x1 S2048x1 where
  lhsContracting := [1]
  rhsContracting := [0]
  lhsNonContracting := [0]
  rhsNonContracting := [1]
  lhsBatch := []
  rhsBatch := []
  wf := dot_S2048x2048_S2048x1_S2048x1_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf

abbrev win0_0 : Pipeline.Window sig grid0 :=
  Pipeline.Window.ofSpec (Memref.whole main_arg0) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S1x2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S1x1x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x1 : Shape := ⟨3, ![4, 8192, 1]⟩
abbrev S_ : Shape := ⟨0, ![]⟩
abbrev S4x8192x8192 : Shape := ⟨3, ![4, 8192, 8192]⟩
abbrev S4x1x8192 : Shape := ⟨3, ![4, 1, 8192]⟩
abbrev S4x1 : Shape := ⟨2, ![4, 1]⟩
abbrev S4x1x1 : Shape := ⟨3, ![4, 1, 1]⟩
abbrev S4x8192 : Shape := ⟨2, ![4, 8192]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1, .f32⟩
  | .hbm, ⟨1, _⟩ => ⟨S4x8192x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x8192, .f32⟩
  | .hbm, ⟨17, _⟩ => ⟨S4x8192x8192, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x1x8192, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x1x8192, .f32⟩
  | .hbm, ⟨28, _⟩ => ⟨S4x8192x8192, .f32⟩
  | .hbm, ⟨29, _⟩ => ⟨S4x1x8192, .f32⟩
  | .hbm, ⟨30, _⟩ => ⟨S4x1x8192, .f32⟩
  | .hbm, ⟨31, _⟩ => ⟨S4x1x8192, .f32⟩
  | .hbm, ⟨32, _⟩ => ⟨S4x1x8192, .f32⟩
  | .hbm, ⟨33, _⟩ => ⟨S4x1x8192, .f32⟩
  | .hbm, ⟨34, _⟩ => ⟨S4x1x8192, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S_, .f32⟩
  | .hbm, ⟨41, _⟩ => ⟨S4x1, .f32⟩
  | .hbm, ⟨42, _⟩ => ⟨S_, .f32⟩
  | .hbm, ⟨43, _⟩ => ⟨S4x1, .f32⟩
  | .hbm, ⟨44, _⟩ => ⟨S4x1, .f32⟩
  | .hbm, ⟨45, _⟩ => ⟨S4x1x1, .f32⟩
  | .hbm, ⟨46, _⟩ => ⟨S4x8192x1, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x1, .f32⟩
  | .hbm, ⟨51, _⟩ => ⟨S4x1x1, .f32⟩
  | .hbm, ⟨52, _⟩ => ⟨S4x8192x1, .f32⟩
  | .hbm, ⟨53, _⟩ => ⟨S4x8192x1, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x1, .f32⟩
  | .hbm, ⟨59, _⟩ => ⟨S_, .f32⟩
  | .hbm, ⟨60, _⟩ => ⟨S4x1, .f32⟩
  | .hbm, ⟨61, _⟩ => ⟨S_, .f32⟩
  | .hbm, ⟨62, _⟩ => ⟨S4x1, .f32⟩
  | .hbm, ⟨63, _⟩ => ⟨S4x1, .f32⟩
  | .hbm, ⟨64, _⟩ => ⟨S4x1x1, .f32⟩
  | .hbm, ⟨65, _⟩ => ⟨S4x8192x1, .f32⟩
  | .hbm, ⟨66, _⟩ => ⟨S4x8192x1, .f32⟩
  | .hbm, ⟨67, _⟩ => ⟨S4x8192x1, .f32⟩
  | .hbm, ⟨68, _⟩ => ⟨S_, .f32⟩
  | .hbm, ⟨69, _⟩ => ⟨S4x1, .f32⟩
  | .hbm, ⟨70, _⟩ => ⟨S4x1x1, .f32⟩
  | .hbm, ⟨71, _⟩ => ⟨S4x8192x1, .f32⟩
  | .hbm, ⟨72, _⟩ => ⟨S4x8192x1, .f32⟩
  | .hbm, ⟨73, _⟩ => ⟨S4x8192x1, .f32⟩
  | .hbm, ⟨74, _⟩ => ⟨S4x8192, .f32⟩
  | .hbm, ⟨75, _⟩ => ⟨S4x8192x1, .f32⟩
  | .hbm, ⟨76, _⟩ => ⟨S4x8192, .f32⟩
  | _, _ => ⟨S4x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  bcast_S_S4x8192x1 : S_.BroadcastsInDim S4x8192x1 (![] : Fin 0 → Fin S4x8192x1.rank)
  transposes_S4x8192x1_S4x1x8192_0_2_1 : S4x8192x1.Transposes [0, 2, 1] S4x1x8192
  transposes_S4x8192x8192_S4x8192x8192_0_2_1 : S4x8192x8192.Transposes [0, 2, 1] S4x8192x8192
  transposes_S4x1x8192_S4x8192x1_0_2_1 : S4x1x8192.Transposes [0, 2, 1] S4x8192x1
  reducesTo_S4x8192x1_S4x1_d1 : S4x8192x1.ReducesTo [1] S4x1
  h_S_ : 0 < S_.numel
  bcast_S_S4x1 : S_.BroadcastsInDim S4x1 (![] : Fin 0 → Fin S4x1.rank)
  bcast_S4x1_S4x1x1_0_2 : S4x1.BroadcastsInDim S4x1x1 (![0, 2] : Fin 2 → Fin S4x1x1.rank)
  bcast_S4x1x1_S4x8192x1_0_1_2 : S4x1x1.BroadcastsInDim S4x8192x1 (![0, 1, 2] : Fin 3 → Fin S4x8192x1.rank)
  shapeCasts_S4x8192x1_S4x8192 : S4x8192x1.ShapeCasts S4x8192
  dot_S4x8192x1_S4x8192x1_S4x8192x8192_2_2_1_1_0_0_wf : DotDims.WF S4x8192x1 S4x8192x1 S4x8192x8192 [2] [2] [1] [1] [0] [0]
  dot_S4x1x8192_S4x8192x8192_S4x1x8192_2_1_1_2_0_0_wf : DotDims.WF S4x1x8192 S4x8192x8192 S4x1x8192 [2] [1] [1] [2] [0] [0]

variable [Facts₀]

def dot_S4x8192x1_S4x8192x1_S4x8192x8192_2_2_1_1_0_0 : DotDims S4x8192x1 S4x8192x1 S4x8192x8192 where
  lhsContracting := [2]
  rhsContracting := [2]
  lhsNonContracting := [1]
  rhsNonContracting := [1]
  lhsBatch := [0]
  rhsBatch := [0]
  wf := dot_S4x8192x1_S4x8192x1_S4x8192x8192_2_2_1_1_0_0_wf
def dot_S4x1x8192_S4x8192x8192_S4x1x8192_2_1_1_2_0_0 : DotDims S4x1x8192 S4x8192x8192 S4x1x8192 where
  lhsContracting := [2]
  rhsContracting := [1]
  lhsNonContracting := [1]
  rhsNonContracting := [2]
  lhsBatch := [0]
  rhsBatch := [0]
  wf := dot_S4x1x8192_S4x8192x8192_S4x1x8192_2_1_1_2_0_0_wf

class Facts : Prop extends Facts₀ where

variable [Facts]
-- ==== Proof.RefFrame.lean ====
/-
  The reference program has no kernel: its frame is its own run, read back, with the results dropped.
-/
import proofs.«117600_j36644660969672_2_alg».proof.Defs
import proofs.«117600_j36644660969672_2_alg».proof.Proof.Gen.ReferenceIdeal
import proofs.«117600_j36644660969672_2_alg».proof.Proof.Gen.Pre_finite_inputs
import proofs.«117600_j36644660969672_2_alg».proof.Proof.Gen.ReferenceIdeal.Run
import proofs.«117600_j36644660969672_2_alg».proof.Proof.Gen.ReferenceIdeal.Read

noncomputable section

open Idealize.ShloMosaic Idealize.ShloMosaic.TcCoe Idealize.SL.Sem

namespace Cert.Proof.RefFrame

/-- Every weakly fair execution of the reference terminates without a fault and leaves its twelve argument
    arrays as it found them: the run's post with the two result equations dropped. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.Spec.lean ====
/-
  The mathematics of the kernel, as plain functions on the extended reals.

  Per batch b the programs form the 8192 x 8192 matrix  mat b i j = tanh (p (b, i) * q (b, j))  of a column p and a
  row q, and contract it twice: against a column u along j (rowSum: one number per row i) and against a row v along
  i (colSum: one number per column j). One program takes each sum whole; the other cuts both axes into four tiles
  of 2048 and adds one tile's partial sum at a time (rowTile, colTile). In a commutative additive monoid the two
  agree (rowSum_eq_tiles, colSum_eq_tiles): no finiteness is used, only commutativity and associativity of +.
-/
import Idealize.ShloMosaic.PureOps.Ideal
import Idealize.ShloMosaic.PureOps.Ideal.Laws
import Idealize.ShloMosaic.Lib.ValueIdx

open scoped BigOperators

noncomputable section

namespace Cert.Bimodal

open Idealize.ShloMosaic Idealize.ShloMosaic.ValueIdx

/-- Position r of tile I on an axis of 8192 cut into four tiles of 2048 (total in I: wrapped, so that partial
    sums over tiles are sums over Finset.range). -/
def gi (I : ℕ) (r : Fin 2048) : Fin 8192 := ⟨(I * 2048 + r.val) % 8192, Nat.mod_lt _ (by norm_num)⟩

theorem gi_val (I : ℕ) (hI : I < 4) (r : Fin 2048) : (gi I r).val = I * 2048 + r.val := by
  have := r.isLt
  exact Nat.mod_eq_of_lt (by omega)

/-- A sum over the axis of 8192 is the sum over its four tiles of the sums over each tile. -/
theorem sum_tiles {M : Type*} [AddCommMonoid M] (f : Fin 8192 → M) :
    ∑ j : Fin 8192, f j = ∑ J ∈ Finset.range 4, ∑ cc : Fin 2048, f (gi J cc) := by
  -- the outer sum runs over the four tiles; the double sum is a sum over pairs (tile, position)
  rw [Finset.sum_range (fun J => ∑ cc : Fin 2048, f (gi J cc))]
  rw [← Fintype.sum_prod_type' (f := fun (J : Fin 4) (cc : Fin 2048) => f (gi J.val cc))]
  -- pairs (J, cc) are in bijection with the 8192 positions, (J, cc) ↦ cc + 2048 * J
  refine ((Equiv.sum_comp (finProdFinEquiv (m := 4) (n := 2048)) f).symm).trans ?_
  refine Finset.sum_congr rfl (fun x _ => congrArg f (Fin.ext ?_))
  have h1 := x.1.isLt
  have h2 := x.2.isLt
  have e : ((finProdFinEquiv (m := 4) (n := 2048)) x).val = x.2.val + 2048 * x.1.val := finProdFinEquiv_apply_val x
  refine e.trans ?_
  show _ = (x.1.val * 2048 + x.2.val) % 8192
  rw [Nat.mod_eq_of_lt (by omega)]
  omega

section
variable (p : (⟨3, ![4, 8192, 1]⟩ : Shape).Idx → EReal)   -- a column per batch
         (q : (⟨3, ![4, 1, 8192]⟩ : Shape).Idx → EReal)   -- a row per batch
         (u : (⟨3, ![4, 8192, 1]⟩ : Shape).Idx → EReal)   -- the column the rows are contracted against
         (v : (⟨3, ![4, 1, 8192]⟩ : Shape).Idx → EReal)   -- the row the columns are contracted against

/-- Entry (i, j) of batch b's matrix: tanh of the outer product. -/
def mat (b : Fin 4) (i j : Fin 8192) : EReal := Ideal.tanh (p (ix3 b i (0 : Fin 1)) * q (ix3 b (0 : Fin 1) j))

/-- Row i's sum against u, over all 8192 columns. -/
def rowSum (b : Fin 4) (i : Fin 8192) : EReal := ∑ j : Fin 8192, mat p q b i j * u (ix3 b j (0 : Fin 1))

/-- Column j's sum against v, over all 8192 rows. -/
def colSum (b : Fin 4) (j : Fin 8192) : EReal := ∑ i : Fin 8192, v (ix3 b (0 : Fin 1) i) * mat p q b i j

/-- Row i's partial sum over the columns of tile J. -/
def rowTile (b : Fin 4) (i : Fin 8192) (J : ℕ) : EReal :=
  ∑ cc : Fin 2048, mat p q b i (gi J cc) * u (ix3 b (gi J cc) (0 : Fin 1))

/-- Column j's partial sum over the rows of tile I. -/
def colTile (b : Fin 4) (I : ℕ) (j : Fin 8192) : EReal :=
  ∑ r : Fin 2048, v (ix3 b (0 : Fin 1) (gi I r)) * mat p q b (gi I r) j

theorem rowSum_eq_tiles (b : Fin 4) (i : Fin 8192) :
    rowSum p q u b i = ∑ J ∈ Finset.range 4, rowTile p q u b i J := by
  unfold rowSum rowTile
  exact sum_tiles _

theorem colSum_eq_tiles (b : Fin 4) (j : Fin 8192) :
    colSum p q v b j = ∑ I ∈ Finset.range 4, colTile p q v b I j := by
  unfold colSum colTile
  exact sum_tiles _

end

/-! ## The two arrays the shared softmax tail is applied to -/

section
variable (x0 x1 : (⟨3, ![4, 8192, 1]⟩ : Shape).Idx → EReal) (w0 b0 w1 b1 w2 b2 w3 b3 w4 b4 : EReal)

/-- The row q: the second input, scaled and shifted, one row per batch. -/
def qRow : (⟨3, ![4, 1, 8192]⟩ : Shape).Idx → EReal := fun i => x1 (ix3 (i 0) (i 2) (0 : Fin 1)) * w0 + b0

/-- The column u the rows are contracted against: the second input under another scale and shift. -/
def uCol : (⟨3, ![4, 8192, 1]⟩ : Shape).Idx → EReal := fun i => x1 i * w2 + b2

/-- The row v the columns are contracted against: the first input, scaled and shifted, as a row. -/
def vRow : (⟨3, ![4, 1, 8192]⟩ : Shape).Idx → EReal := fun i => x0 (ix3 (i 0) (i 2) (0 : Fin 1)) * w1 + b1

/-- First result before its softmax: tanh (v_i + rowSum_i) scaled and shifted. -/
def logit1 : (⟨3, ![4, 8192, 1]⟩ : Shape).Idx → EReal := fun i =>
  Ideal.tanh ((x0 i * w1 + b1) + rowSum x0 (qRow x1 w0 b0) (uCol x1 w2 b2) (i 0) (i 1)) * w3 + b3

/-- Second result before its softmax: tanh (u_j + colSum_j) scaled and shifted. -/
def logit2 : (⟨3, ![4, 8192, 1]⟩ : Shape).Idx → EReal := fun i =>
  Ideal.tanh ((x1 i * w2 + b2) + colSum x0 (qRow x1 w0 b0) (vRow x0 w1 b1) (i 0) (i 1)) * w4 + b4

end

end Cert.Bimodal

end
-- ==== Proof.Tail.lean ====
/-
  The tail both programs end with: a softmax along the axis of 8192 of a [4, 8192, 1] array a, times x, flattened.

  tail a x = reshape ( exp (a - max) / sum (exp (a - max)) * x ),  max the row maximum of a (from -inf), the sum
  taken from 0, both broadcast back along the axis. Both programs apply these same operations, so the tail is kept
  closed: the two results are equal because the arrays it is applied to are. Its shape side conditions are
  propositions, so any two witnesses of them give the same function.
-/
import Idealize.ShloMosaic.PureOps.Ideal

noncomputable section

namespace Cert.Bimodal

open Idealize.ShloMosaic

abbrev T3 : Shape := ⟨3, ![4, 8192, 1]⟩
abbrev T2 : Shape := ⟨2, ![4, 1]⟩
abbrev T311 : Shape := ⟨3, ![4, 1, 1]⟩
abbrev T0 : Shape := ⟨0, ![]⟩
abbrev Tout : Shape := ⟨2, ![4, 8192]⟩

/-- softmax of a along axis 1, times x, as a [4, 8192] array. -/
def tail (hb0 : T0.BroadcastsInDim T2 (![] : Fin 0 → Fin T2.rank)) (hr : T3.ReducesTo [1] T2) (h0 : 0 < T0.numel)
    (hb1 : T2.BroadcastsInDim T311 (![0, 2] : Fin 2 → Fin T311.rank))
    (hb2 : T311.BroadcastsInDim T3 (![0, 1, 2] : Fin 3 → Fin T3.rank)) (hc : T3.ShapeCasts Tout)
    (a x : FVec Ideal T3 .f32) : FVec Ideal Tout .f32 :=
  let mx : FVec Ideal T2 .f32 :=
    maximumf (broadcastInDim T2 ![] hb0 (constant (F := Ideal) T0 .f32 0xFF800000#32))
      (Host.reduce FloatOps.maximumf a (constant (F := Ideal) T0 .f32 0xFF800000#32) hr h0)
  let sh : FVec Ideal T3 .f32 := subf a (broadcastInDim T3 ![0, 1, 2] hb2 (broadcastInDim T311 ![0, 2] hb1 mx))
  let ex : FVec Ideal T3 .f32 := Host.exp sh
  let sm : FVec Ideal T2 .f32 := Host.reduceAdd ex (constant (F := Ideal) T0 .f32 0x00000000#32) hr h0
  let sf : FVec Ideal T3 .f32 := Host.divf ex (broadcastInDim T3 ![0, 1, 2] hb2 (broadcastInDim T311 ![0, 2] hb1 sm))
  shapeCast Tout (mulf sf x) hc

end Cert.Bimodal

end
-- ==== Proof.RefValue.lean ====
/-
  The reference program's two results, as the shared softmax tail applied to the two shared arrays.

  Read one element at a time, the reference forms, per batch b, the matrix  tanh (x0 (b, i) * q (b, j))  with
  q = x1 * w0 + b0, contracts it along j against  u = x1 * w2 + b2  and along i against  v = x0 * w1 + b1,
  adds v resp. u, takes tanh, scales and shifts: these are the arrays logit1 and logit2. Its transposes only
  permute coordinates, and its first contraction runs over an axis of size one, so it is its single term.
  What follows them in the program is, operation for operation, the softmax tail.
-/
import proofs.«117600_j36644660969672_2_alg».proof.Proof.Gen.ReferenceIdeal.Read
import proofs.«117600_j36644660969672_2_alg».proof.Proof.Spec
import proofs.«117600_j36644660969672_2_alg».proof.Proof.Tail

open scoped BigOperators

noncomputable section

namespace Cert.Bimodal.RefValue

open Cert.ReferenceIdeal Cert.ReferenceIdeal.Gen Cert.ReferenceIdeal.Read Idealize.ShloMosaic
  Idealize.ShloMosaic.ValueIdx Cert.Bimodal

/-- Two rank-3 indices with equal coordinates are equal. -/
theorem idx3_ext {s : Shape} (hs : s.rank = 3) (i j : s.Idx)
    (h0 : i ⟨0, by omega⟩ = j ⟨0, by omega⟩) (h1 : i ⟨1, by omega⟩ = j ⟨1, by omega⟩)
    (h2 : i ⟨2, by omega⟩ = j ⟨2, by omega⟩) : i = j := by
  funext a
  obtain ⟨a, ha⟩ := a
  match a, ha with
  | 0, _ => exact h0
  | 1, _ => exact h1
  | 2, _ => exact h2
  | n + 3, ha => exact absurd ha (by omega)

section
variable (x0 x1 : (⟨S4x8192x1, .f32⟩ : BufTy).Contents (Elt Ideal))
  (x2 x3 x4 x5 x6 x7 x8 x9 x10 x11 : (⟨S_, .f32⟩ : BufTy).Contents (Elt Ideal))

/-- The second input scaled by w0 and shifted by b0. -/
theorem v3_at (n : S4x8192x1.Idx) : val_main_v3 (F := Ideal) x1 x2 x3 n = x1 n * x2 ix0 + x3 ix0 := by
  rw [val_main_v3_apply, val_main_v1_apply, val_main_v0_apply, val_main_v2_apply]
  rfl

/-- The first input scaled by w1 and shifted by b1. -/
theorem v9_at (n : S4x8192x1.Idx) : val_main_v9 (F := Ideal) x0 x4 x5 n = x0 n * x4 ix0 + x5 ix0 := by
  rw [val_main_v9_apply, val_main_v7_apply, val_main_v6_apply, val_main_v8_apply]
  rfl

/-- The second input scaled by w2 and shifted by b2. -/
theorem v14_at (n : S4x8192x1.Idx) : val_main_v14 (F := Ideal) x1 x6 x7 n = x1 n * x6 ix0 + x7 ix0 := by
  rw [val_main_v14_apply, val_main_v12_apply, val_main_v11_apply, val_main_v13_apply]
  rfl

/-- The matrix: the contraction over the axis of size one is its single term. -/
theorem v5_at (b : Fin 4) (i j : Fin 8192) :
    val_main_v5 (F := Ideal) x0 x1 x2 x3 (ix3 b i j) = mat x0 (qRow x1 (x2 ix0) (x3 ix0)) b i j := by
  rw [val_main_v5_apply, val_main_v4_apply, Fin.sum_univ_one, v3_at]
  have hl : lidx_main_v4 (ix3 b i j) 0 = ix3 b i (0 : Fin 1) := idx3_ext rfl _ _ rfl rfl rfl
  have hr : ridx_main_v4 (ix3 b i j) 0 = ix3 b j (0 : Fin 1) := idx3_ext rfl _ _ rfl rfl rfl
  rw [hl, hr]
  rfl

/-- The first large contraction: row i's sum against u, the factors in the other order. -/
theorem v17_at (b : Fin 4) (i : Fin 8192) :
    val_main_v17 (F := Ideal) x0 x1 x2 x3 x6 x7 (ix3 b (0 : Fin 1) i)
      = rowSum x0 (qRow x1 (x2 ix0) (x3 ix0)) (uCol x1 (x6 ix0) (x7 ix0)) b i := by
  rw [val_main_v17_apply]
  unfold rowSum
  refine Finset.sum_congr rfl fun k _ => ?_
  rw [val_main_v15_apply, val_main_v16_apply, v14_at]
  have hl : idx_main_v15 (lidx_main_v17 (ix3 b (0 : Fin 1) i) k) = ix3 b k (0 : Fin 1) :=
    idx3_ext rfl _ _ rfl rfl rfl
  have hr : idx_main_v16 (ridx_main_v17 (ix3 b (0 : Fin 1) i) k) = ix3 b i k := idx3_ext rfl _ _ rfl rfl rfl
  rw [hl, hr, v5_at, mul_comm]
  rfl

/-- The second large contraction: column j's sum against v. -/
theorem v20_at (b : Fin 4) (j : Fin 8192) :
    val_main_v20 (F := Ideal) x0 x1 x2 x3 x4 x5 (ix3 b (0 : Fin 1) j)
      = colSum x0 (qRow x1 (x2 ix0) (x3 ix0)) (vRow x0 (x4 ix0) (x5 ix0)) b j := by
  rw [val_main_v20_apply]
  unfold colSum
  refine Finset.sum_congr rfl fun k _ => ?_
  rw [val_main_v10_apply, v9_at]
  have hl : idx_main_v10 (lidx_main_v20 (ix3 b (0 : Fin 1) j) k) = ix3 b k (0 : Fin 1) :=
    idx3_ext rfl _ _ rfl rfl rfl
  have hr : ridx_main_v20 (ix3 b (0 : Fin 1) j) k = ix3 b k j := idx3_ext rfl _ _ rfl rfl rfl
  rw [hl, hr, v5_at]
  rfl

/-- The array the first softmax is taken of. -/
theorem v27_eq :
    val_main_v27 (F := Ideal) x0 x1 x2 x3 x4 x5 x6 x7 x8 x9
      = logit1 x0 x1 (x2 ix0) (x3 ix0) (x4 ix0) (x5 ix0) (x6 ix0) (x7 ix0) (x8 ix0) (x9 ix0) := by
  funext n
  obtain ⟨b, i, c, rfl⟩ : ∃ (b : Fin 4) (i : Fin 8192) (c : Fin 1), n = ix3 b i c := ⟨_, _, _, eq_ix3 n⟩
  obtain rfl : c = 0 := Subsingleton.elim _ _
  rw [val_main_v27_apply, val_main_v25_apply, val_main_v24_apply, val_main_v26_apply, val_main_v23_apply,
    val_main_v19_apply, val_main_v18_apply, val_main_v10_apply, v9_at]
  have h23 : idx_main_v23 (ix3 b i (0 : Fin 1)) = ix3 b (0 : Fin 1) i := idx3_ext rfl _ _ rfl rfl rfl
  have h10 : idx_main_v10 (ix3 b (0 : Fin 1) i) = ix3 b i (0 : Fin 1) := idx3_ext rfl _ _ rfl rfl rfl
  rw [h23, h10, v17_at]
  rfl

/-- The array the second softmax is taken of. -/
theorem v43_eq :
    val_main_v43 (F := Ideal) x0 x1 x2 x3 x4 x5 x6 x7 x10 x11
      = logit2 x0 x1 (x2 ix0) (x3 ix0) (x4 ix0) (x5 ix0) (x6 ix0) (x7 ix0) (x10 ix0) (x11 ix0) := by
  funext n
  obtain ⟨b, j, c, rfl⟩ : ∃ (b : Fin 4) (j : Fin 8192) (c : Fin 1), n = ix3 b j c := ⟨_, _, _, eq_ix3 n⟩
  obtain rfl : c = 0 := Subsingleton.elim _ _
  rw [val_main_v43_apply, val_main_v41_apply, val_main_v40_apply, val_main_v42_apply, val_main_v39_apply,
    val_main_v22_apply, val_main_v21_apply, val_main_v15_apply, v14_at]
  have h39 : idx_main_v39 (ix3 b j (0 : Fin 1)) = ix3 b (0 : Fin 1) j := idx3_ext rfl _ _ rfl rfl rfl
  have h15 : idx_main_v15 (ix3 b (0 : Fin 1) j) = ix3 b j (0 : Fin 1) := idx3_ext rfl _ _ rfl rfl rfl
  rw [h39, h15, v20_at]
  rfl

/-- The first result: the softmax tail of logit1, times the first input. -/
theorem ref_result1 :
    val_main_v56 (F := Ideal) x0 x1 x2 x3 x4 x5 x6 x7 x8 x9
      = tail bcast_S_S4x1 reducesTo_S4x8192x1_S4x1_d1 h_S_ bcast_S4x1_S4x1x1_0_2 bcast_S4x1x1_S4x8192x1_0_1_2
          shapeCasts_S4x8192x1_S4x8192
          (logit1 x0 x1 (x2 ix0) (x3 ix0) (x4 ix0) (x5 ix0) (x6 ix0) (x7 ix0) (x8 ix0) (x9 ix0)) x0 := by
  rw [← v27_eq]
  rfl

/-- The second result: the softmax tail of logit2, times the second input. -/
theorem ref_result2 :
    val_main_v58 (F := Ideal) x0 x1 x2 x3 x4 x5 x6 x7 x10 x11
      = tail bcast_S_S4x1 reducesTo_S4x8192x1_S4x1_d1 h_S_ bcast_S4x1_S4x1x1_0_2 bcast_S4x1x1_S4x8192x1_0_1_2
          shapeCasts_S4x8192x1_S4x8192
          (logit2 x0 x1 (x2 ix0) (x3 ix0) (x4 ix0) (x5 ix0) (x6 ix0) (x7 ix0) (x10 ix0) (x11 ix0)) x1 := by
  rw [← v43_eq]
  rfl

end

end Cert.Bimodal.RefValue

end
-- ==== Proof.Claims.lean ====
/-
  The certificate's claims, assembled.

  Both programs end, on every device, with the same two arrays: the softmax tail of logit1 times the first input and
  the softmax tail of logit2 times the second, as functions of the twelve arguments. For the reference this is its
  own run read back (the two results as the tail of the two logits); for the kernel it is the hypothesis the
  assembly takes. From memories that agree on the arguments the two pairs of results are therefore equal.
-/
import proofs.«117600_j36644660969672_2_alg».proof.Defs
import proofs.«117600_j36644660969672_2_alg».proof.Proof.Gen.Kernel.Frame
import proofs.«117600_j36644660969672_2_alg».proof.Proof.Gen.KernelIdeal.Frame
import proofs.«117600_j36644660969672_2_alg».proof.Proof.RefFrame
import proofs.«117600_j36644660969672_2_alg».proof.Proof.RefValue
import proofs.«117600_j36644660969672_2_alg».proof.Proof.Tail
import proofs.«117600_j36644660969672_2_alg».proof.Proof.Spec

noncomputable section

open Idealize.ShloMosaic Idealize.ShloMosaic.TcCoe Idealize.SL.Sem

namespace Cert.Bimodal.Claims

open Idealize.ShloMosaic.ValueIdx Cert.Bimodal

/-- A memory of the kernel program, its floats extended reals. -/
abbrev KMem : Type :=
  (ℓ : Loc Cert.KernelIdeal.nD Cert.KernelIdeal.τ Cert.KernelIdeal.sig) → Buf (Elt Ideal) ℓ

section
variable (m : KMem) (c : Dev Cert.KernelIdeal.nD)

/-- The first input, a column of 8192 per batch. -/
abbrev kx0 : T3.Idx → EReal := m ((c.tc : Thread Cert.KernelIdeal.nD Cert.KernelIdeal.τ).loc Cert.KernelIdeal.main_arg0)
/-- The second input. -/
abbrev kx1 : T3.Idx → EReal := m ((c.tc : Thread Cert.KernelIdeal.nD Cert.KernelIdeal.τ).loc Cert.KernelIdeal.main_arg1)
/-- The scalar w0. -/
abbrev kw0 : EReal := (m ((c.tc : Thread Cert.KernelIdeal.nD Cert.KernelIdeal.τ).loc Cert.KernelIdeal.main_arg2) : T0.Idx → EReal) ix0
/-- The scalar b0. -/
abbrev kb0 : EReal := (m ((c.tc : Thread Cert.KernelIdeal.nD Cert.KernelIdeal.τ).loc Cert.KernelIdeal.main_arg3) : T0.Idx → EReal) ix0
/-- The scalar w1. -/
abbrev kw1 : EReal := (m ((c.tc : Thread Cert.KernelIdeal.nD Cert.KernelIdeal.τ).loc Cert.KernelIdeal.main_arg4) : T0.Idx → EReal) ix0
/-- The scalar b1. -/
abbrev kb1 : EReal := (m ((c.tc : Thread Cert.KernelIdeal.nD Cert.KernelIdeal.τ).loc Cert.KernelIdeal.main_arg5) : T0.Idx → EReal) ix0
/-- The scalar w2. -/
abbrev kw2 : EReal := (m ((c.tc : Thread Cert.KernelIdeal.nD Cert.KernelIdeal.τ).loc Cert.KernelIdeal.main_arg6) : T0.Idx → EReal) ix0
/-- The scalar b2. -/
abbrev kb2 : EReal := (m ((c.tc : Thread Cert.KernelIdeal.nD Cert.KernelIdeal.τ).loc Cert.KernelIdeal.main_arg7) : T0.Idx → EReal) ix0
/-- The scalar w3. -/
abbrev kw3 : EReal := (m ((c.tc : Thread Cert.KernelIdeal.nD Cert.KernelIdeal.τ).loc Cert.KernelIdeal.main_arg8) : T0.Idx → EReal) ix0
/-- The scalar b3. -/
abbrev kb3 : EReal := (m ((c.tc : Thread Cert.KernelIdeal.nD Cert.KernelIdeal.τ).loc Cert.KernelIdeal.main_arg9) : T0.Idx → EReal) ix0
/-- The scalar w4. -/
abbrev kw4 : EReal := (m ((c.tc : Thread Cert.KernelIdeal.nD Cert.KernelIdeal.τ).loc Cert.KernelIdeal.main_arg10) : T0.Idx → EReal) ix0
/-- The scalar b4. -/
abbrev kb4 : EReal := (m ((c.tc : Thread Cert.KernelIdeal.nD Cert.KernelIdeal.τ).loc Cert.KernelIdeal.main_arg11) : T0.Idx → EReal) ix0

/-- The softmax tail, its shape side conditions those of the kernel program. -/
abbrev ktail (a x : FVec Ideal T3 .f32) : FVec Ideal Tout .f32 :=
  tail Cert.KernelIdeal.Gen.bcast_S_S4x1 Cert.KernelIdeal.Gen.reducesTo_S4x8192x1_S4x1_d1 Cert.KernelIdeal.Gen.h_S_
    Cert.KernelIdeal.Gen.bcast_S4x1_S4x1x1_0_2 Cert.KernelIdeal.Gen.bcast_S4x1x1_S4x8192x1_0_1_2
    Cert.KernelIdeal.Gen.shapeCasts_S4x8192x1_S4x8192 a x

/-- The first result: the softmax tail of logit1, times the first input. -/
abbrev res1 : FVec Ideal Tout .f32 :=
  ktail (logit1 (kx0 m c) (kx1 m c) (kw0 m c) (kb0 m c) (kw1 m c) (kb1 m c) (kw2 m c) (kb2 m c) (kw3 m c) (kb3 m c)) (kx0 m c)

/-- The second result: the softmax tail of logit2, times the second input. -/
abbrev res2 : FVec Ideal Tout .f32 :=
  ktail (logit2 (kx0 m c) (kx1 m c) (kw0 m c) (kb0 m c) (kw1 m c) (kb1 m c) (kw2 m c) (kb2 m c) (kw4 m c) (kb4 m c)) (kx1 m c)

end

/-- What the kernel program's run leaves: on every device the two results, and the twelve arguments unchanged. -/
def KernelPost (m : KMem) :
    PUnit × MemSt Cert.KernelIdeal.nD Cert.KernelIdeal.τ Cert.KernelIdeal.sig (Elt Ideal) → Prop :=
  fun r => ∀ c : Dev Cert.KernelIdeal.nD,
      r.2.mem ((c.tc : Thread Cert.KernelIdeal.nD Cert.KernelIdeal.τ).loc Cert.KernelIdeal.main_v59) = res1 m c
      ∧ r.2.mem ((c.tc : Thread Cert.KernelIdeal.nD Cert.KernelIdeal.τ).loc Cert.KernelIdeal.main_v61) = res2 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := Cert.Proof.RefFrame.frame_ri
theorem preserves : Cert.preserves_Kernel_KernelIdeal := trivial

/-- From memories agreeing on the arguments both programs run and end with equal results: the kernel's are the two
    tails by hypothesis, the reference's by its run read back, the arguments carried over by the agreement. -/
theorem algebraic
    (hk : ∀ (m : KMem) (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (KernelPost m)) :
    Cert.algebraic_KernelIdeal_ReferenceIdeal := by
  intro m ρ m' ρ' _ hagree
  refine ⟨fun c => res1 m c, fun c => res2 m c, hk m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v56_eq, a0, a1, a2, a3, a4, a5, a6, a7, a8, a9]
    exact Cert.Bimodal.RefValue.ref_result1 _ _ _ _ _ _ _ _ _ _
  · obtain ⟨a0, a1, a2, a3, a4, a5, a6, a7, a8, a9, a10, a11⟩ := hagree c
    rw [Cert.ReferenceIdeal.Read.val_main_v58_eq, a0, a1, a2, a3, a4, a5, a6, a7, a10, a11]
    exact Cert.Bimodal.RefValue.ref_result2 _ _ _ _ _ _ _ _ _ _

/-- Everything the certificate claims, given the kernel program's run. -/
theorem claim_of
    (hk : ∀ (m : KMem) (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (KernelPost m)) :
    Cert.Claim :=
  ⟨Cert.Kernel.Gen.facts, Cert.KernelIdeal.Gen.facts, Cert.ReferenceIdeal.Gen.facts, Cert.Pre_finite_inputs.Gen.facts,
    frame_p, frame_pi, frame_ri, preserves, algebraic hk⟩

end Cert.Bimodal.Claims

end
-- ==== Proof.KernelHost.lean ====
/-
  The host operations of the kernel program around its one region.

  Before the region the program forms, from its two inputs x0, x1 (a column of 8192 per batch) and six of its ten
  scalars: the row q = x1^T * w0 + b0, the column u = x1 * w2 + b2 and the row v = x0^T * w1 + b1 that the region
  reads, and the column x0 * w1 + b1 and the row x1^T * w2 + b2 that the region's two outputs are added to. After the
  region it adds those, takes tanh, scales and shifts by the last four scalars, and applies the softmax tail to each
  (the second after transposing the row back to a column). Here each of these arrays is read at an index.
-/
import proofs.«117600_j36644660969672_2_alg».proof.Proof.Gen.KernelIdeal.Frame
import proofs.«117600_j36644660969672_2_alg».proof.Proof.Spec
import proofs.«117600_j36644660969672_2_alg».proof.Proof.Tail
import Idealize.ShloMosaic.Lib.StableHlo.Run
import Idealize.ShloMosaic.Lib.Pipeline.Value

noncomputable section

namespace Cert.Bimodal.KernelHost

open Cert.KernelIdeal Cert.KernelIdeal.Gen Idealize.ShloMosaic Idealize.ShloMosaic.TcCoe Idealize.SL.Sem
open Idealize.ShloMosaic.ValueIdx Idealize.ShloMosaic.StableHlo Cert.Bimodal

/-! ## Reading the host operations at an index -/

/-- Swapping the last two axes of a [4, 8192, 1] array: entry (b, 0, j) of the result is entry (b, j, 0). -/
theorem transpose_col_apply {α : Type} (x : S4x8192x1.Idx → α) (h : S4x8192x1.Transposes [0, 2, 1] S4x1x8192)
    (i : S4x1x8192.Idx) : transpose S4x1x8192 [0, 2, 1] x h i = x (ix3 (i 0) (i 2) (0 : Fin 1)) :=
  transpose_apply [0, 2, 1] x h i (ix3 (i 0) (i 2) (0 : Fin 1)) (fun b => match b with
    | ⟨0, _⟩ => rfl
    | ⟨1, _⟩ => (Fin.val_eq_zero (i 1)).symm
    | ⟨2, _⟩ => rfl)

/-- Swapping the last two axes of a [4, 1, 8192] array: entry (b, j, 0) of the result is entry (b, 0, j). -/
theorem transpose_row_apply {α : Type} (y : S4x1x8192.Idx → α) (h : S4x1x8192.Transposes [0, 2, 1] S4x8192x1)
    (i : S4x8192x1.Idx) : transpose S4x8192x1 [0, 2, 1] y h i = y (ix3 (i 0) (0 : Fin 1) (i 1)) :=
  transpose_apply [0, 2, 1] y h i (ix3 (i 0) (0 : Fin 1) (i 1)) (fun b => match b with
    | ⟨0, _⟩ => rfl
    | ⟨1, _⟩ => rfl
    | ⟨2, _⟩ => (Fin.val_eq_zero (i 2)).symm)

/-- A scalar broadcast to any shape is that scalar everywhere. -/
theorem bcast_scalar_apply {α : Type} {t : Shape} (h : S_.BroadcastsInDim t (![] : Fin 0 → Fin t.rank)) (s : S_.Idx → α)
    (i : t.Idx) : broadcastInDim t ![] h s i = s ix0 :=
  broadcastInDim_apply _ h s i ix0 (fun a => a.elim0)

/-- The transposed column x, scaled by the scalar s and shifted by the scalar t, as a row per batch. -/
theorem row_read (x : FVec Ideal S4x8192x1 .f32) (s t : FVec Ideal S_ .f32)
    (ht : S4x8192x1.Transposes [0, 2, 1] S4x1x8192) (hb : S_.BroadcastsInDim S4x1x8192 (![] : Fin 0 → Fin S4x1x8192.rank)) :
    addf (mulf (transpose S4x1x8192 [0, 2, 1] x ht) (broadcastInDim S4x1x8192 ![] hb s)) (broadcastInDim S4x1x8192 ![] hb t)
      = fun i => x (ix3 (i 0) (i 2) (0 : Fin 1)) * s ix0 + t ix0 := by
  funext i
  rw [addf_apply, mulf_apply, bcast_scalar_apply hb s i, bcast_scalar_apply hb t i, transpose_col_apply x ht i]

/-- The column x, scaled by the scalar s and shifted by the scalar t. -/
theorem col_read (x : FVec Ideal S4x8192x1 .f32) (s t : FVec Ideal S_ .f32)
    (hb : S_.BroadcastsInDim S4x8192x1 (![] : Fin 0 → Fin S4x8192x1.rank)) :
    addf (mulf x (broadcastInDim S4x8192x1 ![] hb s)) (broadcastInDim S4x8192x1 ![] hb t)
      = fun i => x i * s ix0 + t ix0 := by
  funext i
  rw [addf_apply, mulf_apply, bcast_scalar_apply hb s i, bcast_scalar_apply hb t i]

variable (m : (ℓ : Loc nD τ sig) → Buf (Elt Ideal) ℓ) (c : Dev nD)

/-! ## The program's inputs: two columns per batch and ten scalars -/

/-- The first input. -/
abbrev x0 : S4x8192x1.Idx → EReal := m ((c : Thread nD τ).loc main_arg0)
/-- The second input. -/
abbrev x1 : S4x8192x1.Idx → EReal := m ((c : Thread nD τ).loc main_arg1)
/-- The five scales and five shifts. -/
abbrev w0 : EReal := (m ((c : Thread nD τ).loc main_arg2) : S_.Idx → EReal) ix0
abbrev b0 : EReal := (m ((c : Thread nD τ).loc main_arg3) : S_.Idx → EReal) ix0
abbrev w1 : EReal := (m ((c : Thread nD τ).loc main_arg4) : S_.Idx → EReal) ix0
abbrev b1 : EReal := (m ((c : Thread nD τ).loc main_arg5) : S_.Idx → EReal) ix0
abbrev w2 : EReal := (m ((c : Thread nD τ).loc main_arg6) : S_.Idx → EReal) ix0
abbrev b2 : EReal := (m ((c : Thread nD τ).loc main_arg7) : S_.Idx → EReal) ix0
abbrev w3 : EReal := (m ((c : Thread nD τ).loc main_arg8) : S_.Idx → EReal) ix0
abbrev b3 : EReal := (m ((c : Thread nD τ).loc main_arg9) : S_.Idx → EReal) ix0
abbrev w4 : EReal := (m ((c : Thread nD τ).loc main_arg10) : S_.Idx → EReal) ix0
abbrev b4 : EReal := (m ((c : Thread nD τ).loc main_arg11) : S_.Idx → EReal) ix0

/-! ## The arrays the region finds -/

/-- The row q the region finds: the second input transposed, scaled and shifted. -/
theorem V_v4 : (V m c main_v4 : S4x1x8192.Idx → EReal)
    = qRow (x1 m c) (w0 m c) (b0 m c) := by
  show StableHlo.after hostOps0 (fun b => m (c, b)) (Proc.devRef .tc main_v4) = _
  after_results
  exact row_read _ _ _ _ _

/-- The column u the region finds: the second input under the third scale and shift. -/
theorem V_v12 : (V m c main_v12 : S4x8192x1.Idx → EReal)
    = uCol (x1 m c) (w2 m c) (b2 m c) := by
  show StableHlo.after hostOps0 (fun b => m (c, b)) (Proc.devRef .tc main_v12) = _
  after_results
  exact col_read _ _ _ _

set_option maxHeartbeats 4000000 in
/-- The row v the region finds: the first input transposed, scaled and shifted. -/
theorem V_v17 : (V m c main_v17 : S4x1x8192.Idx → EReal)
    = vRow (x0 m c) (w1 m c) (b1 m c) := by
  show StableHlo.after hostOps0 (fun b => m (c, b)) (Proc.devRef .tc main_v17) = _
  after_results
  exact row_read _ _ _ _ _

set_option maxHeartbeats 4000000 in
/-- The column the first output of the region is added to: the first input, scaled and shifted. -/
theorem V_v21 : (V m c main_v21 : S4x8192x1.Idx → EReal)
    = fun i => x0 m c i * w1 m c + b1 m c := by
  show StableHlo.after hostOps0 (fun b => m (c, b)) (Proc.devRef .tc main_v21) = _
  after_results
  exact col_read _ _ _ _

set_option maxHeartbeats 4000000 in
/-- The row the second output of the region is added to: the second input transposed, under the third scale and shift. -/
theorem V_v8 : (V m c main_v8 : S4x1x8192.Idx → EReal)
    = fun i => x1 m c (ix3 (i 0) (i 2) (0 : Fin 1)) * w2 m c + b2 m c := by
  show StableHlo.after hostOps0 (fun b => m (c, b)) (Proc.devRef .tc main_v8) = _
  after_results
  exact row_read _ _ _ _ _

/-! ## Reading the operations after the region at an index -/

/-- A column index of a [4, 8192, 1] array is determined by its first two coordinates. -/
theorem col_idx (i : S4x8192x1.Idx) : ix3 (i 0) (i 1) (0 : Fin 1) = i :=
  (congrArg (ix3 (i 0) (i 1)) (Fin.ext (Fin.val_eq_zero (i 2)).symm : (0 : Fin 1) = i 2)).trans (eq_ix3 i).symm

/-- tanh of the sum of two columns, scaled by the scalar s and shifted by the scalar t. -/
theorem logit_col (a r : FVec Ideal S4x8192x1 .f32) (s t : FVec Ideal S_ .f32)
    (hb : S_.BroadcastsInDim S4x8192x1 (![] : Fin 0 → Fin S4x8192x1.rank)) :
    addf (mulf (Host.tanh (addf a r)) (broadcastInDim S4x8192x1 ![] hb s)) (broadcastInDim S4x8192x1 ![] hb t)
      = fun i => Ideal.tanh (a i + r i) * s ix0 + t ix0 := by
  funext i
  rw [addf_apply, mulf_apply, bcast_scalar_apply hb s i, bcast_scalar_apply hb t i]
  rfl

/-- tanh of the sum of two rows, scaled by the scalar s and shifted by the scalar t, transposed back to a column. -/
theorem logit_row (a r : FVec Ideal S4x1x8192 .f32) (s t : FVec Ideal S_ .f32)
    (hb : S_.BroadcastsInDim S4x1x8192 (![] : Fin 0 → Fin S4x1x8192.rank)) (ht : S4x1x8192.Transposes [0, 2, 1] S4x8192x1) :
    transpose S4x8192x1 [0, 2, 1]
        (addf (mulf (Host.tanh (addf a r)) (broadcastInDim S4x1x8192 ![] hb s)) (broadcastInDim S4x1x8192 ![] hb t)) ht
      = fun i => Ideal.tanh (a (ix3 (i 0) (0 : Fin 1) (i 1)) + r (ix3 (i 0) (0 : Fin 1) (i 1))) * s ix0 + t ix0 := by
  funext i
  rw [transpose_row_apply _ ht i, addf_apply, mulf_apply, bcast_scalar_apply hb s _, bcast_scalar_apply hb t _]
  rfl

/-- The first result before its softmax, from what its leaves hold. -/
theorem logit1_read (a r : FVec Ideal S4x8192x1 .f32) (s t : FVec Ideal S_ .f32) (a' r' : S4x8192x1.Idx → EReal)
    (s' t' : S_.Idx → EReal) (ha : a = a') (hr : r = r') (hs : s = s') (ht : t = t')
    (hb : S_.BroadcastsInDim S4x8192x1 (![] : Fin 0 → Fin S4x8192x1.rank)) :
    addf (mulf (Host.tanh (addf a r)) (broadcastInDim S4x8192x1 ![] hb s)) (broadcastInDim S4x8192x1 ![] hb t)
      = fun i => Ideal.tanh (a' i + r' i) * s' ix0 + t' ix0 := by
  subst ha hr hs ht
  exact logit_col a r s t hb

/-- The second result before its softmax, from what its leaves hold: the row x^T * w + b read back at a column index
    is x * w + b. -/
theorem logit2_read (a r : FVec Ideal S4x1x8192 .f32) (s t : FVec Ideal S_ .f32) (x : S4x8192x1.Idx → EReal) (w b : EReal)
    (r' : S4x1x8192.Idx → EReal) (s' t' : S_.Idx → EReal)
    (ha : a = fun j => x (ix3 (j 0) (j 2) (0 : Fin 1)) * w + b) (hr : r = r') (hs : s = s') (ht : t = t')
    (hb : S_.BroadcastsInDim S4x1x8192 (![] : Fin 0 → Fin S4x1x8192.rank)) (htr : S4x1x8192.Transposes [0, 2, 1] S4x8192x1) :
    transpose S4x8192x1 [0, 2, 1]
        (addf (mulf (Host.tanh (addf a r)) (broadcastInDim S4x1x8192 ![] hb s)) (broadcastInDim S4x1x8192 ![] hb t)) htr
      = fun i => Ideal.tanh ((x i * w + b) + r' (ix3 (i 0) (0 : Fin 1) (i 1))) * s' ix0 + t' ix0 := by
  subst ha hr hs ht
  rw [logit_row _ r s t hb htr]
  funext i
  exact congrArg (fun z => Ideal.tanh ((x z * w + b) + r (ix3 (i 0) (0 : Fin 1) (i 1))) * s ix0 + t ix0) (col_idx i)

/-- The operations both programs end with, applied to a column array a and an input x, are the shared tail. -/
theorem tail_shape (hb0 : S_.BroadcastsInDim S4x1 (![] : Fin 0 → Fin S4x1.rank)) (hr : S4x8192x1.ReducesTo [1] S4x1)
    (h0 : 0 < S_.numel) (hb1 : S4x1.BroadcastsInDim S4x1x1 (![0, 2] : Fin 2 → Fin S4x1x1.rank))
    (hb2 : S4x1x1.BroadcastsInDim S4x8192x1 (![0, 1, 2] : Fin 3 → Fin S4x8192x1.rank)) (hc : S4x8192x1.ShapeCasts S4x8192)
    (a a' x x' : FVec Ideal S4x8192x1 .f32) (ha : a = a') (hx : x = x') :
    shapeCast S4x8192
      (mulf
        (Host.divf
          (Host.exp (subf a (broadcastInDim S4x8192x1 ![0, 1, 2] hb2 (broadcastInDim S4x1x1 ![0, 2] hb1
            (maximumf (broadcastInDim S4x1 ![] hb0 (constant (F := Ideal) S_ .f32 0xFF800000#32))
              (Host.reduce FloatOps.maximumf a (constant (F := Ideal) S_ .f32 0xFF800000#32) hr h0))))))
          (broadcastInDim S4x8192x1 ![0, 1, 2] hb2 (broadcastInDim S4x1x1 ![0, 2] hb1
            (Host.reduceAdd
              (Host.exp (subf a (broadcastInDim S4x8192x1 ![0, 1, 2] hb2 (broadcastInDim S4x1x1 ![0, 2] hb1
                (maximumf (broadcastInDim S4x1 ![] hb0 (constant (F := Ideal) S_ .f32 0xFF800000#32))
                  (Host.reduce FloatOps.maximumf a (constant (F := Ideal) S_ .f32 0xFF800000#32) hr h0))))))
              (constant (F := Ideal) S_ .f32 0x00000000#32) hr h0))))
        x) hc
      = tail hb0 hr h0 hb1 hb2 hc a' x' := by
  subst ha hx
  rfl

/-! ## What the operations after the region find -/

/-- A buffer that is no array of the region is after the region as before it. -/
theorem W_of_ne (b : Ref sig .tc) (hb : ∀ w, Pipeline.arrRef spec0 w ≠ b) :
    Pipeline.withArrays (cfgs 0).spec c (V0 m c) (fun w => (dats m 0 c).arrAt w (cfgs 0).N) (Proc.devRef .tc b) = V m c b :=
  Pipeline.withArrays_of_ne _ c (V0 m c) _ b hb

/-- The region's first output array holds what the region left there. -/
theorem W_out0 : Pipeline.withArrays (cfgs 0).spec c (V0 m c) (fun w => (dats m 0 c).arrAt w (cfgs 0).N) (Proc.devRef .tc main_v22_0)
    = (dats m 0 c).arrAt 4 cfg0.N :=
  Pipeline.withArrays_arr spec0 launch0.win.arr_inj c _ _ 4

/-- The region's second output array holds what the region left there. -/
theorem W_out1 : Pipeline.withArrays (cfgs 0).spec c (V0 m c) (fun w => (dats m 0 c).arrAt w (cfgs 0).N) (Proc.devRef .tc main_v22_1)
    = (dats m 0 c).arrAt 5 cfg0.N :=
  Pipeline.withArrays_arr spec0 launch0.win.arr_inj c _ _ 5

theorem W_v21 : (Pipeline.withArrays (cfgs 0).spec c (V0 m c) (fun w => (dats m 0 c).arrAt w (cfgs 0).N) (Proc.devRef .tc main_v21)
      : S4x8192x1.Idx → EReal) = fun i => x0 m c i * w1 m c + b1 m c :=
  (W_of_ne m c main_v21 (by decide)).trans (V_v21 m c)

theorem W_v8 : (Pipeline.withArrays (cfgs 0).spec c (V0 m c) (fun w => (dats m 0 c).arrAt w (cfgs 0).N) (Proc.devRef .tc main_v8)
      : S4x1x8192.Idx → EReal) = fun j => x1 m c (ix3 (j 0) (j 2) (0 : Fin 1)) * w2 m c + b2 m c :=
  (W_of_ne m c main_v8 (by decide)).trans (V_v8 m c)

/-- The first input is an array the region only reads: it is after the region as launched. -/
theorem W_arg0 : (Pipeline.withArrays (cfgs 0).spec c (V0 m c) (fun w => (dats m 0 c).arrAt w (cfgs 0).N) (Proc.devRef .tc main_arg0)
      : S4x8192x1.Idx → EReal) = x0 m c :=
  (Pipeline.withArrays_arr spec0 launch0.win.arr_inj c _ _ 0).trans
    ((Pipeline.Dat.arrAt_in (dats m 0 c) 0 rfl cfg0.N).trans ((A_eq m c 0).trans (V_main_arg0 m c)))

theorem W_arg1 : (Pipeline.withArrays (cfgs 0).spec c (V0 m c) (fun w => (dats m 0 c).arrAt w (cfgs 0).N) (Proc.devRef .tc main_arg1)
      : S4x8192x1.Idx → EReal) = x1 m c :=
  (W_of_ne m c main_arg1 (by decide)).trans (V_main_arg1 m c)

theorem W_arg8 : (Pipeline.withArrays (cfgs 0).spec c (V0 m c) (fun w => (dats m 0 c).arrAt w (cfgs 0).N) (Proc.devRef .tc main_arg8)
      : S_.Idx → EReal) = m ((c : Thread nD τ).loc main_arg8) :=
  (W_of_ne m c main_arg8 (by decide)).trans (V_main_arg8 m c)

theorem W_arg9 : (Pipeline.withArrays (cfgs 0).spec c (V0 m c) (fun w => (dats m 0 c).arrAt w (cfgs 0).N) (Proc.devRef .tc main_arg9)
      : S_.Idx → EReal) = m ((c : Thread nD τ).loc main_arg9) :=
  (W_of_ne m c main_arg9 (by decide)).trans (V_main_arg9 m c)

theorem W_arg10 : (Pipeline.withArrays (cfgs 0).spec c (V0 m c) (fun w => (dats m 0 c).arrAt w (cfgs 0).N) (Proc.devRef .tc main_arg10)
      : S_.Idx → EReal) = m ((c : Thread nD τ).loc main_arg10) :=
  (W_of_ne m c main_arg10 (by decide)).trans (V_main_arg10 m c)

theorem W_arg11 : (Pipeline.withArrays (cfgs 0).spec c (V0 m c) (fun w => (dats m 0 c).arrAt w (cfgs 0).N) (Proc.devRef .tc main_arg11)
      : S_.Idx → EReal) = m ((c : Thread nD τ).loc main_arg11) :=
  (W_of_ne m c main_arg11 (by decide)).trans (V_main_arg11 m c)

/-! ## The two results after the tail -/

set_option maxHeartbeats 40000000 in
/-- The first result: the shared tail applied to tanh ((x0 * w1 + b1) + R1) * w3 + b3 and x0, where R1 is what the
    region left in its first output array. -/
theorem res1 (R1 : S4x8192x1.Idx → EReal) (h4 : (dats m 0 c).arrAt 4 cfg0.N = R1) :
    (Pipeline.afterTail₀ cfgs (dats m) 0 (V0 m) [hostOps1] c main_v59 : S4x8192.Idx → EReal)
      = tail Gen.bcast_S_S4x1 Gen.reducesTo_S4x8192x1_S4x1_d1 Gen.h_S_ Gen.bcast_S4x1_S4x1x1_0_2
          Gen.bcast_S4x1x1_S4x8192x1_0_1_2 Gen.shapeCasts_S4x8192x1_S4x8192
          (fun i => Ideal.tanh ((x0 m c i * w1 m c + b1 m c) + R1 i) * w3 m c + b3 m c) (x0 m c) := by
  have hA := logit1_read _ _ _ _ _ _ _ _ (W_v21 m c) ((W_out0 m c).trans h4) (W_arg8 m c) (W_arg9 m c) Gen.bcast_S_S4x8192x1
  unfold Pipeline.afterTail₀
  show StableHlo.after hostOps1 _ (Proc.devRef .tc main_v59) = _
  after_results
  exact tail_shape _ _ _ _ _ _ _ _ _ _ hA (W_arg0 m c)

set_option maxHeartbeats 40000000 in
/-- The second result: the shared tail applied to tanh ((x1 * w2 + b2) + R2^T) * w4 + b4 and x1, where R2 is the row
    the region left in its second output array, read back at a column index. -/
theorem res2 (R2 : S4x1x8192.Idx → EReal) (h5 : (dats m 0 c).arrAt 5 cfg0.N = R2) :
    (Pipeline.afterTail₀ cfgs (dats m) 0 (V0 m) [hostOps1] c main_v61 : S4x8192.Idx → EReal)
      = tail Gen.bcast_S_S4x1 Gen.reducesTo_S4x8192x1_S4x1_d1 Gen.h_S_ Gen.bcast_S4x1_S4x1x1_0_2
          Gen.bcast_S4x1x1_S4x8192x1_0_1_2 Gen.shapeCasts_S4x8192x1_S4x8192
          (fun i => Ideal.tanh ((x1 m c i * w2 m c + b2 m c) + R2 (ix3 (i 0) (0 : Fin 1) (i 1))) * w4 m c + b4 m c) (x1 m c) := by
  have hA := logit2_read _ _ _ _ (x1 m c) (w2 m c) (b2 m c) _ _ _ (W_v8 m c) ((W_out1 m c).trans h5) (W_arg10 m c) (W_arg11 m c)
    Gen.bcast_S_S4x1x8192 Gen.transposes_S4x1x8192_S4x8192x1_0_2_1
  unfold Pipeline.afterTail₀
  show StableHlo.after hostOps1 _ (Proc.devRef .tc main_v61) = _
  after_results
  exact tail_shape _ _ _ _ _ _ _ _ _ _ hA (W_arg1 m c)

end Cert.Bimodal.KernelHost

end
-- ==== Proof.Blocks.lean ====
/-
  The blocks the kernel's four input windows read, one element at a time.

  The grid is 4 x 4 x 4; point t has coordinates  b = t / 16,  I = t / 4 % 4,  J = t % 4. Each window cuts its
  array into blocks of 2048 along the axis of 8192, and a block's element r lies in the array at
  block index * 2048 + r  on that axis, at the batch b on the first, at 0 on the axis of size one.
-/
import proofs.«117600_j36644660969672_2_alg».proof.Proof.Gen.KernelIdeal.Frame
import proofs.«117600_j36644660969672_2_alg».proof.Proof.Spec
import Idealize.ShloMosaic.Lib.Pipeline.Value
import Idealize.ShloMosaic.Lib.ValueIdx

noncomputable section

namespace Cert.Bimodal.Blocks

open Cert.KernelIdeal Cert.KernelIdeal.Gen Idealize.ShloMosaic Idealize.ShloMosaic.TcCoe Idealize.SL.Sem
  Idealize.ShloMosaic.ValueIdx Cert.Bimodal

variable {F : FTy → Type} [FloatOps F] (m : (ℓ : Loc nD τ sig) → Buf (Elt F) ℓ)

/-- The batch coordinate of grid point t. -/
def bOf (t : Fin cfg0.N) : Fin 4 := ⟨t.val / 16, by have := t.isLt; have h := N_0; change t.val < grid0.N at this; omega⟩

theorem bOf_val (t : Fin cfg0.N) : (bOf t).val = t.val / 16 := rfl

/-- Window 0's block index at point t is (b, I, 0). -/
theorem idx0 : ∀ t : Fin cfg0.N, win0_0.index t 0 = t.val / 16 ∧ win0_0.index t 1 = t.val / 4 % 4 ∧ win0_0.index t 2 = 0 :=
  (by decide +kernel : ∀ t : Fin grid0.N, _)

/-- Window 1's block index at point t is (b, 0, J). -/
theorem idx1 : ∀ t : Fin cfg0.N, win0_1.index t 0 = t.val / 16 ∧ win0_1.index t 1 = 0 ∧ win0_1.index t 2 = t.val % 4 :=
  (by decide +kernel : ∀ t : Fin grid0.N, _)

/-- Window 2's block index at point t is (b, J, 0). -/
theorem idx2 : ∀ t : Fin cfg0.N, win0_2.index t 0 = t.val / 16 ∧ win0_2.index t 1 = t.val % 4 ∧ win0_2.index t 2 = 0 :=
  (by decide +kernel : ∀ t : Fin grid0.N, _)

/-- Window 3's block index at point t is (b, 0, I). -/
theorem idx3 : ∀ t : Fin cfg0.N, win0_3.index t 0 = t.val / 16 ∧ win0_3.index t 1 = 0 ∧ win0_3.index t 2 = t.val / 4 % 4 :=
  (by decide +kernel : ∀ t : Fin grid0.N, _)

/-- Window 0: element r of the block at point t is the first input at (b, I * 2048 + r, 0). -/
theorem iblk0_at (c : Dev nD) (t : Fin cfg0.N) (r : Fin 2048) :
    (iblk m c 0 t : Vec F S1x2048x1 .f32) (ix3 (0 : Fin 1) r (0 : Fin 1))
      = V m c main_arg0 (ix3 (bOf t) (gi (t.val / 4 % 4) r) (0 : Fin 1)) := by
  unfold iblk
  rw [View.read_apply]
  show V m c main_arg0 _ = V m c main_arg0 _
  congr 1
  funext a
  apply Fin.ext
  match a with
  | ⟨0, _⟩ =>
    show win0_0.index t 0 * 1 + 1 * 0 = (bOf t).val
    rw [(idx0 t).1, bOf_val]
    omega
  | ⟨1, _⟩ =>
    show win0_0.index t 1 * 2048 + 1 * r.val = (gi (t.val / 4 % 4) r).val
    rw [(idx0 t).2.1, gi_val _ (Nat.mod_lt _ (by norm_num)) r]
    omega
  | ⟨2, _⟩ =>
    show win0_0.index t 2 * 1 + 1 * 0 = 0
    rw [(idx0 t).2.2]

/-- Window 1: element r of the block at point t is its array at (b, 0, J * 2048 + r). -/
theorem iblk1_at (c : Dev nD) (t : Fin cfg0.N) (r : Fin 2048) :
    (iblk m c 1 t : Vec F S1x1x2048 .f32) (ix3 (0 : Fin 1) (0 : Fin 1) r)
      = V m c main_v4 (ix3 (bOf t) (0 : Fin 1) (gi (t.val % 4) r)) := by
  unfold iblk
  rw [View.read_apply]
  show V m c main_v4 _ = V m c main_v4 _
  congr 1
  funext a
  apply Fin.ext
  match a with
  | ⟨0, _⟩ =>
    show win0_1.index t 0 * 1 + 1 * 0 = (bOf t).val
    rw [(idx1 t).1, bOf_val]
    omega
  | ⟨1, _⟩ =>
    show win0_1.index t 1 * 1 + 1 * 0 = 0
    rw [(idx1 t).2.1]
  | ⟨2, _⟩ =>
    show win0_1.index t 2 * 2048 + 1 * r.val = (gi (t.val % 4) r).val
    rw [(idx1 t).2.2, gi_val _ (Nat.mod_lt _ (by norm_num)) r]
    omega

/-- Window 2: element r of the block at point t is its array at (b, J * 2048 + r, 0). -/
theorem iblk2_at (c : Dev nD) (t : Fin cfg0.N) (r : Fin 2048) :
    (iblk m c 2 t : Vec F S1x2048x1 .f32) (ix3 (0 : Fin 1) r (0 : Fin 1))
      = V m c main_v12 (ix3 (bOf t) (gi (t.val % 4) r) (0 : Fin 1)) := by
  unfold iblk
  rw [View.read_apply]
  show V m c main_v12 _ = V m c main_v12 _
  congr 1
  funext a
  apply Fin.ext
  match a with
  | ⟨0, _⟩ =>
    show win0_2.index t 0 * 1 + 1 * 0 = (bOf t).val
    rw [(idx2 t).1, bOf_val]
    omega
  | ⟨1, _⟩ =>
    show win0_2.index t 1 * 2048 + 1 * r.val = (gi (t.val % 4) r).val
    rw [(idx2 t).2.1, gi_val _ (Nat.mod_lt _ (by norm_num)) r]
    omega
  | ⟨2, _⟩ =>
    show win0_2.index t 2 * 1 + 1 * 0 = 0
    rw [(idx2 t).2.2]

/-- Window 3: element r of the block at point t is its array at (b, 0, I * 2048 + r). -/
theorem iblk3_at (c : Dev nD) (t : Fin cfg0.N) (r : Fin 2048) :
    (iblk m c 3 t : Vec F S1x1x2048 .f32) (ix3 (0 : Fin 1) (0 : Fin 1) r)
      = V m c main_v17 (ix3 (bOf t) (0 : Fin 1) (gi (t.val / 4 % 4) r)) := by
  unfold iblk
  rw [View.read_apply]
  show V m c main_v17 _ = V m c main_v17 _
  congr 1
  funext a
  apply Fin.ext
  match a with
  | ⟨0, _⟩ =>
    show win0_3.index t 0 * 1 + 1 * 0 = (bOf t).val
    rw [(idx3 t).1, bOf_val]
    omega
  | ⟨1, _⟩ =>
    show win0_3.index t 1 * 1 + 1 * 0 = 0
    rw [(idx3 t).2.1]
  | ⟨2, _⟩ =>
    show win0_3.index t 2 * 2048 + 1 * r.val = (gi (t.val / 4 % 4) r).val
    rw [(idx3 t).2.2, gi_val _ (Nat.mod_lt _ (by norm_num)) r]
    omega

end Cert.Bimodal.Blocks

end
-- ==== Proof.Final.lean ====
/-
  From the blocks the pipeline writes back to the two result arrays of the kernel's region.

  The first result [4, 8192, 1] is written in blocks [1, 2048, 1], block (b, I, 0) at the last grid point that visits
  it; the second [4, 1, 8192] in one block [1, 1, 8192] per batch. Given what each such block holds when it is written
  back (the whole row sums of its tile of rows, the whole column sums of its batch), every array index lies in exactly
  such a block, so each array ends holding the whole sums, index by index.
-/
import proofs.«117600_j36644660969672_2_alg».proof.Proof.Gen.KernelIdeal.Frame
import proofs.«117600_j36644660969672_2_alg».proof.Proof.Spec
import proofs.«117600_j36644660969672_2_alg».proof.Proof.Blocks
import Idealize.ShloMosaic.Lib.Pipeline.Value
import Idealize.ShloMosaic.Lib.ValueIdx

open scoped BigOperators

noncomputable section

namespace Cert.Bimodal.Final

open Cert.KernelIdeal Cert.KernelIdeal.Gen Idealize.ShloMosaic Idealize.ShloMosaic.TcCoe Idealize.SL.Sem
  Idealize.ShloMosaic.ValueIdx Cert.Bimodal
open Cert.Bimodal.Blocks (bOf)
open Idealize.ShloMosaic.Pipeline (Dat)

variable (m : (ℓ : Loc nD τ sig) → Buf (Elt Ideal) ℓ) (c : Dev nD)

/-- The first result: every row's whole sum. -/
abbrev G4 : Buf (Elt Ideal) ((c : Thread nD τ).loc main_v22_0) := fun i =>
  rowSum (V m c main_arg0) (V m c main_v4) (V m c main_v12) (i 0) (i 1)

/-- The second result: every column's whole sum. -/
abbrev G5 : Buf (Elt Ideal) ((c : Thread nD τ).loc main_v22_1) := fun i =>
  colSum (V m c main_arg0) (V m c main_v4) (V m c main_v17) (i 0) (i 2)

/-- The first result's block index at grid point t is (batch, row tile, 0). -/
theorem idx4 : ∀ t : Fin cfg0.N, win0_4.index t 0 = t.val / 16 ∧ win0_4.index t 1 = t.val / 4 % 4 ∧ win0_4.index t 2 = 0 :=
  (by decide +kernel : ∀ t : Fin grid0.N, win0_4.index t 0 = t.val / 16 ∧ win0_4.index t 1 = t.val / 4 % 4 ∧ win0_4.index t 2 = 0)

/-- The second result's block index at grid point t is (batch, 0, 0). -/
theorem idx5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)

/-- What a write-back of the first result writes is its block of the whole row sums. -/
theorem flushed4_eq
    (hO4 : ∀ (t : Fin cfg0.N), t.val % 4 = 3 → ∀ r : Fin 2048,
      (outsAt0 m c t.val t.isLt).1 (ix3 (0 : Fin 1) r (0 : Fin 1))
        = rowSum (V m c main_arg0) (V m c main_v4) (V m c main_v12) (bOf t) (gi (t.val / 4 % 4) r))
    (t : Fin cfg0.N) (hf : (cfg0.win 4).flush t = true) :
    (dats m 0 c).flushed 4 t = ((cfg0.win 4).blk t).view.read (Elt Ideal) (G4 m c) := by
  have h3 := (flush0_4 t).mp hf
  show (cfg0.win 4).cut (grid0.coords t) ((dats m 0 c).after 4 t) = _
  rw [after0_4]
  refine funext fun (y : S1x2048x1.Idx) => ?_
  obtain ⟨e0, e1, e2⟩ := idx4 t
  -- an index of the block is (0, r, 0)
  obtain ⟨r, rfl⟩ : ∃ r : Fin 2048, y = ix3 (0 : Fin 1) r (0 : Fin 1) := ⟨y 1, funext fun a => by
    match a with
    | ⟨0, _⟩ => exact Fin.ext (Nat.lt_one_iff.mp (y 0).isLt)
    | ⟨1, _⟩ => rfl
    | ⟨2, _⟩ => exact Fin.ext (Nat.lt_one_iff.mp (y 2).isLt)⟩
  -- under the block at (batch, row tile, 0) it is the array index (batch, row tile * 2048 + r, 0)
  have hb : (((cfg0.win 4).blk t).view.emb (ix3 (0 : Fin 1) r (0 : Fin 1))) 0 = bOf t := Fin.ext (by
    show win0_4.index t 0 * 1 + 1 * 0 = t.val / 16
    omega)
  have hi : (((cfg0.win 4).blk t).view.emb (ix3 (0 : Fin 1) r (0 : Fin 1))) 1 = gi (t.val / 4 % 4) r := Fin.ext (by
    refine Eq.trans ?_ (gi_val _ (by omega) r).symm
    show win0_4.index t 1 * 2048 + 1 * r.val = t.val / 4 % 4 * 2048 + r.val
    omega)
  refine (hO4 t h3 r).trans ?_
  show _ = rowSum (V m c main_arg0) (V m c main_v4) (V m c main_v12)
    ((((cfg0.win 4).blk t).view.emb (ix3 (0 : Fin 1) r (0 : Fin 1))) 0)
    ((((cfg0.win 4).blk t).view.emb (ix3 (0 : Fin 1) r (0 : Fin 1))) 1)
  rw [hb, hi]

/-- What a write-back of the second result writes is its block of the whole column sums. -/
theorem flushed5_eq
    (hO5 : ∀ (t : Fin cfg0.N), t.val % 16 = 15 → ∀ j : Fin 8192,
      (outsAt0 m c t.val t.isLt).2.1 (ix3 (0 : Fin 1) (0 : Fin 1) j)
        = colSum (V m c main_arg0) (V m c main_v4) (V m c main_v17) (bOf t) j)
    (t : Fin cfg0.N) (hf : (cfg0.win 5).flush t = true) :
    (dats m 0 c).flushed 5 t = ((cfg0.win 5).blk t).view.read (Elt Ideal) (G5 m c) := by
  have h15 := (flush0_5 t).mp hf
  show (cfg0.win 5).cut (grid0.coords t) ((dats m 0 c).after 5 t) = _
  rw [after0_5]
  refine funext fun (y : S1x1x8192.Idx) => ?_
  obtain ⟨e0, e1, e2⟩ := idx5 t
  -- an index of the block is (0, 0, j)
  obtain ⟨j, rfl⟩ : ∃ j : Fin 8192, y = ix3 (0 : Fin 1) (0 : Fin 1) j := ⟨y 2, funext fun a => by
    match a with
    | ⟨0, _⟩ => exact Fin.ext (Nat.lt_one_iff.mp (y 0).isLt)
    | ⟨1, _⟩ => exact Fin.ext (Nat.lt_one_iff.mp (y 1).isLt)
    | ⟨2, _⟩ => rfl⟩
  -- under the block at (batch, 0, 0) it is the array index (batch, 0, j)
  have hb : (((cfg0.win 5).blk t).view.emb (ix3 (0 : Fin 1) (0 : Fin 1) j)) 0 = bOf t := Fin.ext (by
    show win0_5.index t 0 * 1 + 1 * 0 = t.val / 16
    omega)
  have hj : (((cfg0.win 5).blk t).view.emb (ix3 (0 : Fin 1) (0 : Fin 1) j)) 2 = j := Fin.ext (by
    show win0_5.index t 2 * 8192 + 1 * j.val = j.val
    omega)
  refine (hO5 t h15 j).trans ?_
  show _ = colSum (V m c main_arg0) (V m c main_v4) (V m c main_v17)
    ((((cfg0.win 5).blk t).view.emb (ix3 (0 : Fin 1) (0 : Fin 1) j)) 0)
    ((((cfg0.win 5).blk t).view.emb (ix3 (0 : Fin 1) (0 : Fin 1) j)) 2)
  rw [hb, hj]

/-- The first result array ends holding every row's whole sum: row i of batch b lies in the block written back at the
    last point of (b, i / 2048). -/
theorem final4
    (hO4 : ∀ (t : Fin cfg0.N), t.val % 4 = 3 → ∀ r : Fin 2048,
      (outsAt0 m c t.val t.isLt).1 (ix3 (0 : Fin 1) r (0 : Fin 1))
        = rowSum (V m c main_arg0) (V m c main_v4) (V m c main_v12) (bOf t) (gi (t.val / 4 % 4) r)) :
    (dats m 0 c).arrAt 4 cfg0.N = G4 m c :=
  (dats m 0 c).arrAt_eq_of_cover 4 (G4 m c) (flushed4_eq m c hO4) fun i => by
    have hi0 : (i 0).val < 4 := (i 0).isLt
    have hi1 : (i 1).val < 8192 := (i 1).isLt
    have hi2 : (i 2).val < 1 := (i 2).isLt
    have hN : cfg0.N = 64 := N_0
    obtain ⟨t, ht⟩ : ∃ t : Fin cfg0.N, t.val = 16 * (i 0).val + 4 * ((i 1).val / 2048) + 3 := ⟨⟨_, by omega⟩, rfl⟩
    refine ⟨t, (flush0_4 t).mpr (by omega), ?_⟩
    show i ∈ ((View.whole main_v22_0).slice (win0_4.rect t)).set
    rw [View.set_slice_whole, Rect.mem_set_unit]
    obtain ⟨e0, e1, e2⟩ := idx4 t
    intro a
    match a with
    | ⟨0, _⟩ => show win0_4.index t 0 * 1 ≤ (i 0).val ∧ (i 0).val < win0_4.index t 0 * 1 + 1; omega
    | ⟨1, _⟩ => show win0_4.index t 1 * 2048 ≤ (i 1).val ∧ (i 1).val < win0_4.index t 1 * 2048 + 2048; omega
    | ⟨2, _⟩ => show win0_4.index t 2 * 1 ≤ (i 2).val ∧ (i 2).val < win0_4.index t 2 * 1 + 1; omega

/-- The second result array ends holding every column's whole sum: batch b's row lies in the block written back at the
    last point of the batch. -/
theorem final5
    (hO5 : ∀ (t : Fin cfg0.N), t.val % 16 = 15 → ∀ j : Fin 8192,
      (outsAt0 m c t.val t.isLt).2.1 (ix3 (0 : Fin 1) (0 : Fin 1) j)
        = colSum (V m c main_arg0) (V m c main_v4) (V m c main_v17) (bOf t) j) :
    (dats m 0 c).arrAt 5 cfg0.N = G5 m c :=
  (dats m 0 c).arrAt_eq_of_cover 5 (G5 m c) (flushed5_eq m c hO5) fun i => by
    have hi0 : (i 0).val < 4 := (i 0).isLt
    have hi1 : (i 1).val < 1 := (i 1).isLt
    have hi2 : (i 2).val < 8192 := (i 2).isLt
    have hN : cfg0.N = 64 := N_0
    obtain ⟨t, ht⟩ : ∃ t : Fin cfg0.N, t.val = 16 * (i 0).val + 15 := ⟨⟨_, by omega⟩, rfl⟩
    refine ⟨t, (flush0_5 t).mpr (by omega), ?_⟩
    show i ∈ ((View.whole main_v22_1).slice (win0_5.rect t)).set
    rw [View.set_slice_whole, Rect.mem_set_unit]
    obtain ⟨e0, e1, e2⟩ := idx5 t
    intro a
    match a with
    | ⟨0, _⟩ => show win0_5.index t 0 * 1 ≤ (i 0).val ∧ (i 0).val < win0_5.index t 0 * 1 + 1; omega
    | ⟨1, _⟩ => show win0_5.index t 1 * 1 ≤ (i 1).val ∧ (i 1).val < win0_5.index t 1 * 1 + 1; omega
    | ⟨2, _⟩ => show win0_5.index t 2 * 8192 ≤ (i 2).val ∧ (i 2).val < win0_5.index t 2 * 8192 + 8192; omega

end Cert.Bimodal.Final

end
-- ==== Proof.Pieces.lean ====
import proofs.«117600_j36644660969672_2_alg».proof.Proof.Gen.KernelIdeal.Frame
import Idealize.ShloMosaic.Lib.Pipeline.Value
import Idealize.ShloMosaic.Lib.WritesUnit
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)

/-
  What one run of the body leaves behind, case by case, as the body's own arithmetic (its payloads).

  The body keeps two accumulators between grid points: a column S of 2048 (one entry per row of the current row
  tile) and a row T of 8192 (one entry per column of the whole matrix). At a point (b, I, J) it forms the tile
  tanh (p_I ⊗ q_J), adds the tile's product with u_J to S, adds v_I's product with the tile to the J-th window of
  2048 entries of T (the rest of T is left as it was), and copies S and T to the two output blocks. S starts from
  zero when J = 0, T when I = J = 0: the three cases below are (both from zero), (S from zero, T carried),
  (both carried).
-/
namespace Cert.Bimodal.Pieces

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The window of 2048 entries of the row accumulator that the point with third coordinate i 2 updates. -/
abbrev win (i : grid0.Coords) : Rect S1x8192 := Rect.unit (s := S1x8192) (k0_off1 i) S1x2048.size (Gen.k0_off1_inb i)

/-! ## Both accumulators carried -/

/-- The column accumulator: what it held plus the tile's product with u. -/
theorem sB0 (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : ¬cond0_0 i) (hc1 : ¬cond0_1 i) (x0 : Vec F S1x2048x1 .f32) (x1 : Vec F S1x1x2048 .f32) (x2 : Vec F S1x2048x1 .f32) (x3 : Vec F S1x1x2048 .f32) (xs0 : Vec F S2048x1 .f32) (xs1 : Vec F S1x8192 .f32) :
    sout0_B_0 c i arg3 harg3 arg4 harg4 arg5 harg5 arg6 harg6 arg7 harg7 arg8 harg8 arg9 harg9 arg10 harg10 hc0 hc1 x0 x1 x2 x3 xs0 xs1 = k0_pay8 x0 x1 x2 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_unit_zero hz2]
  simp only [View.readAt_eq_ld, harg3.read_unread, harg4.read_unread, harg5.read_unread, harg9.read_unread,
    View.ld_unit_zero (S := S1x2048x1) hz3, View.ld_unit_zero (S := S1x1x2048) hz3, View.ld_unit_zero (S := S2048x1) hz2]

/-- The first output block is the column accumulator, recast. -/
theorem oB4 (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : ¬cond0_0 i) (hc1 : ¬cond0_1 i) (x0 : Vec F S1x2048x1 .f32) (x1 : Vec F S1x1x2048 .f32) (x2 : Vec F S1x2048x1 .f32) (x3 : Vec F S1x1x2048 .f32) (xs0 : Vec F S2048x1 .f32) (xs1 : Vec F S1x8192 .f32) :
    out0_B_4 c i arg3 harg3 arg4 harg4 arg5 harg5 arg6 harg6 arg7 harg7 arg8 harg8 arg9 harg9 arg10 harg10 hc0 hc1 x0 x1 x2 x3 xs0 xs1 = k0_pay2 (k0_pay8 x0 x1 x2 xs0) := by
  unfold out0_B_4
  rw [View.read_writes_eq_canon _ _ _ (cover0_B_4 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_unit_zero hz3, View.readCov_unit_zero _ hz2]
  simp only [View.readAt_eq_ld, harg3.read_unread, harg4.read_unread, harg5.read_unread, harg9.read_unread,
    View.ld_unit_zero (S := S1x2048x1) hz3, View.ld_unit_zero (S := S1x1x2048) hz3, View.ld_unit_zero (S := S2048x1) hz2]

/-- The row accumulator inside the point's window: what it held there plus v's product with the tile. -/
theorem sB1_hit (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : ¬cond0_0 i) (hc1 : ¬cond0_1 i) (x0 : Vec F S1x2048x1 .f32) (x1 : Vec F S1x1x2048 .f32) (x2 : Vec F S1x2048x1 .f32) (x3 : Vec F S1x1x2048 .f32) (xs0 : Vec F S2048x1 .f32) (xs1 : Vec F S1x8192 .f32)
    (y : S1x8192.Idx) (cc : Fin 2048) (hy : (y 1).val = 2048 * (i 2).val + cc.val) :
    sout0_B_1 c i arg3 harg3 arg4 harg4 arg5 harg5 arg6 harg6 arg7 harg7 arg8 harg8 arg9 harg9 arg10 harg10 hc0 hc1 x0 x1 x2 x3 xs0 xs1 y = k0_pay1 (k0_pay6 x3) (k0_pay7 x0 x1) (View.ld xs1 (win i)) (ix2 (0 : Fin 1) cc) := by
  unfold sout0_B_1
  unfold kernelRun0_B
  dsimp only
  sl_unfold_words
  simp only [View.readAt_eq_ld, harg3.read_unread, harg4.read_unread, harg6.read_unread, harg10.read_unread,
    View.ld_unit_zero (S := S1x2048x1) hz3, View.ld_unit_zero (S := S1x1x2048) hz3]
  refine View.read_writes_cons_unit_of_mem _ _ _ _ [] y (ix2 (0 : Fin 1) cc) (Gen.k0_off1_eq i) (fun a => ?_)
  match a with
  | ⟨0, _⟩ => have := (y 0).isLt; show (y 0).val = 0 + 0; have h1 : (y 0).val < 1 := this; omega
  | ⟨1, _⟩ => exact hy

/-- The row accumulator outside the point's window is left as it was. -/
theorem sB1_miss (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : ¬cond0_0 i) (hc1 : ¬cond0_1 i) (x0 : Vec F S1x2048x1 .f32) (x1 : Vec F S1x1x2048 .f32) (x2 : Vec F S1x2048x1 .f32) (x3 : Vec F S1x1x2048 .f32) (xs0 : Vec F S2048x1 .f32) (xs1 : Vec F S1x8192 .f32)
    (y : S1x8192.Idx) (hy : (y 1).val < 2048 * (i 2).val ∨ 2048 * (i 2).val + 2048 ≤ (y 1).val) :
    sout0_B_1 c i arg3 harg3 arg4 harg4 arg5 harg5 arg6 harg6 arg7 harg7 arg8 harg8 arg9 harg9 arg10 harg10 hc0 hc1 x0 x1 x2 x3 xs0 xs1 y = xs1 y := by
  unfold sout0_B_1
  unfold kernelRun0_B
  dsimp only
  sl_unfold_words
  refine (View.read_writes_cons_unit_of_not_mem arg10.view (harg10.unread xs1) (Gen.k0_off1_inb i) _ [] y (Gen.k0_off1_eq i) (1 : Fin 2) hy).trans ?_
  rw [View.writes_nil, harg10.read_unread]

/-- The second output block is the row accumulator, recast. -/
theorem oB5 (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : ¬cond0_0 i) (hc1 : ¬cond0_1 i) (x0 : Vec F S1x2048x1 .f32) (x1 : Vec F S1x1x2048 .f32) (x2 : Vec F S1x2048x1 .f32) (x3 : Vec F S1x1x2048 .f32) (xs0 : Vec F S2048x1 .f32) (xs1 : Vec F S1x8192 .f32) :
    out0_B_5 c i arg3 harg3 arg4 harg4 arg5 harg5 arg6 harg6 arg7 harg7 arg8 harg8 arg9 harg9 arg10 harg10 hc0 hc1 x0 x1 x2 x3 xs0 xs1 = k0_pay3 (sout0_B_1 c i arg3 harg3 arg4 harg4 arg5 harg5 arg6 harg6 arg7 harg7 arg8 harg8 arg9 harg9 arg10 harg10 hc0 hc1 x0 x1 x2 x3 xs0 xs1) := by
  unfold out0_B_5 sout0_B_1
  rw [View.read_writes_eq_canon _ _ _ (cover0_B_5 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_unit_zero hz3]
  simp only [View.readAt_eq_ld, View.ld_unit_zero (S := S1x8192) hz2]

/-! ## The column accumulator from zero, the row accumulator carried -/

/-- The column accumulator: zero plus the tile's product with u. -/
theorem sC0 (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : ¬cond0_1 i) (x0 : Vec F S1x2048x1 .f32) (x1 : Vec F S1x1x2048 .f32) (x2 : Vec F S1x2048x1 .f32) (x3 : Vec F S1x1x2048 .f32) (xs1 : Vec F S1x8192 .f32) :
    sout0_C_0 c i arg3 harg3 arg4 harg4 arg5 harg5 arg6 harg6 arg7 harg7 arg8 harg8 arg9 harg9 arg10 harg10 hc0 hc1 x0 x1 x2 x3 xs1 = k0_pay8 x0 x1 x2 k0_pay4 := by
  unfold sout0_C_0
  rw [View.read_writes_junk_eq_canon]
  unfold kernelRun0_C
  dsimp only
  sl_unfold_words
  rw [View.canon_cons_unit_zero hz2, View.readCov_unit_zero _ hz2]
  simp only [View.readAt_eq_ld, harg3.read_unread, harg4.read_unread, harg5.read_unread,
    View.ld_unit_zero (S := S1x2048x1) hz3, View.ld_unit_zero (S := S1x1x2048) hz3]

theorem oC4 (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : ¬cond0_1 i) (x0 : Vec F S1x2048x1 .f32) (x1 : Vec F S1x1x2048 .f32) (x2 : Vec F S1x2048x1 .f32) (x3 : Vec F S1x1x2048 .f32) (xs1 : Vec F S1x8192 .f32) :
    out0_C_4 c i arg3 harg3 arg4 harg4 arg5 harg5 arg6 harg6 arg7 harg7 arg8 harg8 arg9 harg9 arg10 harg10 hc0 hc1 x0 x1 x2 x3 xs1 = k0_pay2 (k0_pay8 x0 x1 x2 k0_pay4) := by
  unfold out0_C_4
  rw [View.read_writes_junk_eq_canon]
  unfold kernelRun0_C
  dsimp only
  sl_unfold_words
  rw [View.canon_unit_zero hz3, View.readCov_unit_zero _ hz2,
    View.readCov_eq_canon_ld _ _ _ (fun y => ⟨_, List.mem_cons_self, View.mem_set_unit_zero hz2 Gen.inb_S2048x1_S2048x1_0_0 y⟩),
    View.canon_cons_unit_zero hz2, View.ld_unit_zero hz2]
  simp only [View.readAt_eq_ld, harg3.read_unread, harg4.read_unread, harg5.read_unread,
    View.ld_unit_zero (S := S1x2048x1) hz3, View.ld_unit_zero (S := S1x1x2048) hz3]

theorem sC1_hit (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : ¬cond0_1 i) (x0 : Vec F S1x2048x1 .f32) (x1 : Vec F S1x1x2048 .f32) (x2 : Vec F S1x2048x1 .f32) (x3 : Vec F S1x1x2048 .f32) (xs1 : Vec F S1x8192 .f32)
    (y : S1x8192.Idx) (cc : Fin 2048) (hy : (y 1).val = 2048 * (i 2).val + cc.val) :
    sout0_C_1 c i arg3 harg3 arg4 harg4 arg5 harg5 arg6 harg6 arg7 harg7 arg8 harg8 arg9 harg9 arg10 harg10 hc0 hc1 x0 x1 x2 x3 xs1 y = k0_pay1 (k0_pay6 x3) (k0_pay7 x0 x1) (View.ld xs1 (win i)) (ix2 (0 : Fin 1) cc) := by
  unfold sout0_C_1
  unfold kernelRun0_C
  dsimp only
  sl_unfold_words
  simp only [View.readAt_eq_ld, harg3.read_unread, harg4.read_unread, harg6.read_unread, harg10.read_unread,
    View.ld_unit_zero (S := S1x2048x1) hz3, View.ld_unit_zero (S := S1x1x2048) hz3]
  refine View.read_writes_cons_unit_of_mem _ _ _ _ [] y (ix2 (0 : Fin 1) cc) (Gen.k0_off1_eq i) (fun a => ?_)
  match a with
  | ⟨0, _⟩ => have := (y 0).isLt; show (y 0).val = 0 + 0; have h1 : (y 0).val < 1 := this; omega
  | ⟨1, _⟩ => exact hy

theorem sC1_miss (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : ¬cond0_1 i) (x0 : Vec F S1x2048x1 .f32) (x1 : Vec F S1x1x2048 .f32) (x2 : Vec F S1x2048x1 .f32) (x3 : Vec F S1x1x2048 .f32) (xs1 : Vec F S1x8192 .f32)
    (y : S1x8192.Idx) (hy : (y 1).val < 2048 * (i 2).val ∨ 2048 * (i 2).val + 2048 ≤ (y 1).val) :
    sout0_C_1 c i arg3 harg3 arg4 harg4 arg5 harg5 arg6 harg6 arg7 harg7 arg8 harg8 arg9 harg9 arg10 harg10 hc0 hc1 x0 x1 x2 x3 xs1 y = xs1 y := by
  unfold sout0_C_1
  unfold kernelRun0_C
  dsimp only
  sl_unfold_words
  refine (View.read_writes_cons_unit_of_not_mem arg10.view (harg10.unread xs1) (Gen.k0_off1_inb i) _ [] y (Gen.k0_off1_eq i) (1 : Fin 2) hy).trans ?_
  rw [View.writes_nil, harg10.read_unread]

theorem oC5 (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : ¬cond0_1 i) (x0 : Vec F S1x2048x1 .f32) (x1 : Vec F S1x1x2048 .f32) (x2 : Vec F S1x2048x1 .f32) (x3 : Vec F S1x1x2048 .f32) (xs1 : Vec F S1x8192 .f32) :
    out0_C_5 c i arg3 harg3 arg4 harg4 arg5 harg5 arg6 harg6 arg7 harg7 arg8 harg8 arg9 harg9 arg10 harg10 hc0 hc1 x0 x1 x2 x3 xs1 = k0_pay3 (sout0_C_1 c i arg3 harg3 arg4 harg4 arg5 harg5 arg6 harg6 arg7 harg7 arg8 harg8 arg9 harg9 arg10 harg10 hc0 hc1 x0 x1 x2 x3 xs1) := by
  unfold out0_C_5 sout0_C_1
  rw [View.read_writes_junk_eq_canon]
  unfold kernelRun0_C
  dsimp only
  sl_unfold_words
  rw [View.canon_unit_zero hz3]
  simp only [View.readAt_eq_ld, View.ld_unit_zero (S := S1x8192) hz2]

/-! ## Both accumulators from zero -/

theorem sA0 (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : cond0_1 i) (x0 : Vec F S1x2048x1 .f32) (x1 : Vec F S1x1x2048 .f32) (x2 : Vec F S1x2048x1 .f32) (x3 : Vec F S1x1x2048 .f32) :
    sout0_A_0 c i arg3 harg3 arg4 harg4 arg5 harg5 arg6 harg6 arg7 harg7 arg8 harg8 arg9 harg9 arg10 harg10 hc0 hc1 x0 x1 x2 x3 = k0_pay8 x0 x1 x2 k0_pay4 := by
  unfold sout0_A_0
  rw [View.read_writes_junk_eq_canon]
  unfold kernelRun0_A
  dsimp only
  sl_unfold_words
  rw [View.canon_cons_unit_zero hz2, View.readCov_unit_zero _ hz2]
  simp only [View.readAt_eq_ld, harg3.read_unread, harg4.read_unread, harg5.read_unread,
    View.ld_unit_zero (S := S1x2048x1) hz3, View.ld_unit_zero (S := S1x1x2048) hz3]

theorem oA4 (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : cond0_1 i) (x0 : Vec F S1x2048x1 .f32) (x1 : Vec F S1x1x2048 .f32) (x2 : Vec F S1x2048x1 .f32) (x3 : Vec F S1x1x2048 .f32) :
    out0_A_4 c i arg3 harg3 arg4 harg4 arg5 harg5 arg6 harg6 arg7 harg7 arg8 harg8 arg9 harg9 arg10 harg10 hc0 hc1 x0 x1 x2 x3 = k0_pay2 (k0_pay8 x0 x1 x2 k0_pay4) := by
  unfold out0_A_4
  rw [View.read_writes_junk_eq_canon]
  unfold kernelRun0_A
  dsimp only
  sl_unfold_words
  rw [View.canon_unit_zero hz3, View.readCov_unit_zero _ hz2,
    View.readCov_eq_canon_ld _ _ _ (fun y => ⟨_, List.mem_cons_self, View.mem_set_unit_zero hz2 Gen.inb_S2048x1_S2048x1_0_0 y⟩),
    View.canon_cons_unit_zero hz2, View.ld_unit_zero hz2]
  simp only [View.readAt_eq_ld, harg3.read_unread, harg4.read_unread, harg5.read_unread,
    View.ld_unit_zero (S := S1x2048x1) hz3, View.ld_unit_zero (S := S1x1x2048) hz3]

theorem row_hit {sg : RefSig} {κ : Kind} {sp : Space} (v : View sg κ sp S1x8192 .f32) (f : v.ty.Contents (Elt F)) (i : grid0.Coords)
    (w : (win i).shape.Idx → Elt F .f32) (L : List (View.Piece (Elt F) S1x8192 .f32))
    (y : S1x8192.Idx) (cc : Fin 2048) (hy : (y 1).val = 2048 * (i 2).val + cc.val) :
    v.read (Elt F) (v.writes (Elt F) f ((⟨win i, w⟩ : View.Piece (Elt F) S1x8192 .f32) :: L)) y = w (ix2 (0 : Fin 1) cc) := by
  refine View.read_writes_cons_unit_of_mem v f (Gen.k0_off1_inb i) w L y (ix2 (0 : Fin 1) cc) (Gen.k0_off1_eq i) (fun a => ?_)
  match a with
  | ⟨0, _⟩ => have := (y 0).isLt; show (y 0).val = 0 + 0; have h1 : (y 0).val < 1 := this; omega
  | ⟨1, _⟩ => exact hy

theorem row_miss {sg : RefSig} {κ : Kind} {sp : Space} (v : View sg κ sp S1x8192 .f32) (f : v.ty.Contents (Elt F)) (i : grid0.Coords)
    (w : (win i).shape.Idx → Elt F .f32) (L : List (View.Piece (Elt F) S1x8192 .f32))
    (y : S1x8192.Idx) (hy : (y 1).val < 2048 * (i 2).val ∨ 2048 * (i 2).val + 2048 ≤ (y 1).val) :
    v.read (Elt F) (v.writes (Elt F) f ((⟨win i, w⟩ : View.Piece (Elt F) S1x8192 .f32) :: L)) y = v.read (Elt F) (v.writes (Elt F) f L) y :=
  View.read_writes_cons_unit_of_not_mem v f (Gen.k0_off1_inb i) w L y (Gen.k0_off1_eq i) (1 : Fin 2) hy

theorem sA1_hit (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : cond0_1 i) (x0 : Vec F S1x2048x1 .f32) (x1 : Vec F S1x1x2048 .f32) (x2 : Vec F S1x2048x1 .f32) (x3 : Vec F S1x1x2048 .f32)
    (y : S1x8192.Idx) (cc : Fin 2048) (hy : (y 1).val = 2048 * (i 2).val + cc.val) :
    sout0_A_1 c i arg3 harg3 arg4 harg4 arg5 harg5 arg6 harg6 arg7 harg7 arg8 harg8 arg9 harg9 arg10 harg10 hc0 hc1 x0 x1 x2 x3 y = k0_pay1 (k0_pay6 x3) (k0_pay7 x0 x1) (View.ld (k0_pay5 (F := F)) (win i)) (ix2 (0 : Fin 1) cc) := by
  unfold sout0_A_1
  unfold kernelRun0_A
  dsimp only
  sl_unfold_words
  refine (row_hit VS0_1 VS0_1.junk i _ _ y cc hy).trans ?_
  simp only [View.readAt_eq_ld, harg3.read_unread, harg4.read_unread, harg6.read_unread,
    View.ld_unit_zero (S := S1x2048x1) hz3, View.ld_unit_zero (S := S1x1x2048) hz3, View.read_writes_junk_eq_canon,
    View.canon_unit_zero (S := S1x8192) hz2]
  rfl

theorem sA1_miss (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : cond0_1 i) (x0 : Vec F S1x2048x1 .f32) (x1 : Vec F S1x1x2048 .f32) (x2 : Vec F S1x2048x1 .f32) (x3 : Vec F S1x1x2048 .f32)
    (y : S1x8192.Idx) (hy : (y 1).val < 2048 * (i 2).val ∨ 2048 * (i 2).val + 2048 ≤ (y 1).val) :
    sout0_A_1 c i arg3 harg3 arg4 harg4 arg5 harg5 arg6 harg6 arg7 harg7 arg8 harg8 arg9 harg9 arg10 harg10 hc0 hc1 x0 x1 x2 x3 y = k0_pay5 (F := F) y := by
  unfold sout0_A_1
  unfold kernelRun0_A
  dsimp only
  sl_unfold_words
  refine (row_miss VS0_1 VS0_1.junk i _ _ y hy).trans ?_
  rw [View.read_writes_junk_eq_canon, View.canon_unit_zero (S := S1x8192) hz2]

set_option maxHeartbeats 2000000 in
theorem oA5 (c : Dev nD) (i : grid0.Coords) (arg3 : Memref sig .tc .vmem S1x2048x1 .f32) (harg3 : arg3.IsWhole) (arg4 : Memref sig .tc .vmem S1x1x2048 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x2048x1 .f32) (harg7 : arg7.IsWhole) (arg8 : Memref sig .tc .vmem S1x1x8192 .f32) (harg8 : arg8.IsWhole) (arg9 : Memref sig .tc .vmem S2048x1 .f32) (harg9 : arg9.IsWhole) (arg10 : Memref sig .tc .vmem S1x8192 .f32) (harg10 : arg10.IsWhole) (hc0 : cond0_0 i) (hc1 : cond0_1 i) (x0 : Vec F S1x2048x1 .f32) (x1 : Vec F S1x1x2048 .f32) (x2 : Vec F S1x2048x1 .f32) (x3 : Vec F S1x1x2048 .f32) :
    out0_A_5 c i arg3 harg3 arg4 harg4 arg5 harg5 arg6 harg6 arg7 harg7 arg8 harg8 arg9 harg9 arg10 harg10 hc0 hc1 x0 x1 x2 x3 = k0_pay3 (sout0_A_1 c i arg3 harg3 arg4 harg4 arg5 harg5 arg6 harg6 arg7 harg7 arg8 harg8 arg9 harg9 arg10 harg10 hc0 hc1 x0 x1 x2 x3) := by
  unfold out0_A_5 sout0_A_1
  rw [View.read_writes_junk_eq_canon, View.read_writes_junk_eq_canon]
  unfold kernelRun0_A
  dsimp only
  sl_unfold_words
  rw [View.canon_unit_zero hz3,
    View.readCov_eq_canon_ld _ _ _ (fun y => ⟨_, List.mem_cons_of_mem _ List.mem_cons_self, View.mem_set_unit_zero hz2 Gen.inb_S1x8192_S1x8192_0_0 y⟩),
    View.ld_unit_zero hz2]

end Cert.Bimodal.Pieces
end
-- ==== Proof.Cases.lean ====
/-
  The body's case lemmas read at a grid point.

  At point t the body runs on the point's input blocks and on what the point before left in the two accumulators.
  The column accumulator restarts when t % 4 = 0 and the row accumulator when t % 16 = 0; otherwise each continues
  from the point before. In every case the two output blocks are recasts of the two accumulators.
-/
import proofs.«117600_j36644660969672_2_alg».proof.Proof.Pieces

set_option maxRecDepth 16384

noncomputable section

open Idealize.ShloMosaic Idealize.ShloMosaic.TcCoe Idealize.SL.Sem

namespace Cert.Bimodal.Cases

open Cert.KernelIdeal Cert.KernelIdeal.Gen Idealize.ShloMosaic.ValueIdx Cert.Bimodal

variable {F : FTy → Type} [FloatOps F] (m : (ℓ : Loc nD τ sig) → Buf (Elt F) ℓ) (c : Dev nD)

/-- What the point before t left (outputs and accumulators). -/
abbrev prev (t : Fin cfg0.N) := outsAt0 m c (t.val - 1) (Nat.lt_of_le_of_lt (Nat.sub_le _ _) t.isLt)

/-- The column accumulator at a point that restarts it: zero plus the tile's product with u. -/
theorem col_reset (t : Fin cfg0.N) (h0 : t.val % 4 = 0) :
    (outsAt0 m c t.val t.isLt).2.2.1 = k0_pay8 (iblk m c 0 t) (iblk m c 1 t) (iblk m c 2 t) k0_pay4 := by
  by_cases h1 : t.val % 16 = 0
  · rw [outsAt0_A m c t h0 h1]; dsimp only
    exact Pieces.sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)
  · rw [outsAt0_C m c t h0 h1]; dsimp only
    exact Pieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (prev m c t).2.2.2

/-- The column accumulator at a point that continues it. -/
theorem col_carry (t : Fin cfg0.N) (h0 : ¬t.val % 4 = 0) :
    (outsAt0 m c t.val t.isLt).2.2.1 = k0_pay8 (iblk m c 0 t) (iblk m c 1 t) (iblk m c 2 t) (prev m c t).2.2.1 := by
  have h1 : ¬t.val % 16 = 0 := by omega
  rw [outsAt0_B m c t h0 h1]; dsimp only
  exact Pieces.sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2

/-- The row accumulator inside the point's window, at the point that restarts it. -/
theorem row_hit_reset (t : Fin cfg0.N) (h1 : t.val % 16 = 0) (y : S1x8192.Idx) (cc : Fin 2048)
    (hy : (y 1).val = 2048 * ((grid0.coords t) 2).val + cc.val) :
    (outsAt0 m c t.val t.isLt).2.2.2 y = k0_pay1 (k0_pay6 (iblk m c 3 t)) (k0_pay7 (iblk m c 0 t) (iblk m c 1 t))
      (View.ld (k0_pay5 (F := F)) (Pieces.win (grid0.coords t))) (ix2 (0 : Fin 1) cc) := by
  have h0 : t.val % 4 = 0 := by omega
  rw [outsAt0_A m c t h0 h1]; dsimp only
  exact Pieces.sA1_hit c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t) y cc hy

/-- The row accumulator inside the point's window, at a point that continues it. -/
theorem row_hit_carry (t : Fin cfg0.N) (h1 : ¬t.val % 16 = 0) (y : S1x8192.Idx) (cc : Fin 2048)
    (hy : (y 1).val = 2048 * ((grid0.coords t) 2).val + cc.val) :
    (outsAt0 m c t.val t.isLt).2.2.2 y = k0_pay1 (k0_pay6 (iblk m c 3 t)) (k0_pay7 (iblk m c 0 t) (iblk m c 1 t))
      (View.ld (prev m c t).2.2.2 (Pieces.win (grid0.coords t))) (ix2 (0 : Fin 1) cc) := by
  by_cases h0 : t.val % 4 = 0
  · rw [outsAt0_C m c t h0 h1]; dsimp only
    exact Pieces.sC1_hit c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (prev m c t).2.2.2 y cc hy
  · rw [outsAt0_B m c t h0 h1]; dsimp only
    exact Pieces.sB1_hit c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2 y cc hy

/-- The row accumulator outside the point's window, at the point that restarts it: zero. -/
theorem row_miss_reset (t : Fin cfg0.N) (h1 : t.val % 16 = 0) (y : S1x8192.Idx)
    (hy : (y 1).val < 2048 * ((grid0.coords t) 2).val ∨ 2048 * ((grid0.coords t) 2).val + 2048 ≤ (y 1).val) :
    (outsAt0 m c t.val t.isLt).2.2.2 y = k0_pay5 (F := F) y := by
  have h0 : t.val % 4 = 0 := by omega
  rw [outsAt0_A m c t h0 h1]; dsimp only
  exact Pieces.sA1_miss c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t) y hy

/-- The row accumulator outside the point's window, at a point that continues it: unchanged. -/
theorem row_miss_carry (t : Fin cfg0.N) (h1 : ¬t.val % 16 = 0) (y : S1x8192.Idx)
    (hy : (y 1).val < 2048 * ((grid0.coords t) 2).val ∨ 2048 * ((grid0.coords t) 2).val + 2048 ≤ (y 1).val) :
    (outsAt0 m c t.val t.isLt).2.2.2 y = (prev m c t).2.2.2 y := by
  by_cases h0 : t.val % 4 = 0
  · rw [outsAt0_C m c t h0 h1]; dsimp only
    exact Pieces.sC1_miss c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (prev m c t).2.2.2 y hy
  · rw [outsAt0_B m c t h0 h1]; dsimp only
    exact Pieces.sB1_miss c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2 y hy

/-- The first output block is the column accumulator, recast. -/
theorem out4_eq (t : Fin cfg0.N) : (outsAt0 m c t.val t.isLt).1 = k0_pay2 (outsAt0 m c t.val t.isLt).2.2.1 := by
  by_cases h0 : t.val % 4 = 0
  · by_cases h1 : t.val % 16 = 0
    · rw [outsAt0_A m c t h0 h1]; dsimp only
      exact (Pieces.oA4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)).trans (congrArg k0_pay2 (Pieces.sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)).symm)
    · rw [outsAt0_C m c t h0 h1]; dsimp only
      exact (Pieces.oC4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (prev m c t).2.2.2).trans (congrArg k0_pay2 (Pieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (prev m c t).2.2.2).symm)
  · have h1 : ¬t.val % 16 = 0 := by omega
    rw [outsAt0_B m c t h0 h1]; dsimp only
    exact (Pieces.oB4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2).trans (congrArg k0_pay2 (Pieces.sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2).symm)

/-- The second output block is the row accumulator, recast. -/
theorem out5_eq (t : Fin cfg0.N) : (outsAt0 m c t.val t.isLt).2.1 = k0_pay3 (outsAt0 m c t.val t.isLt).2.2.2 := by
  by_cases h0 : t.val % 4 = 0
  · by_cases h1 : t.val % 16 = 0
    · rw [outsAt0_A m c t h0 h1]; dsimp only
      exact Pieces.oA5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)
    · rw [outsAt0_C m c t h0 h1]; dsimp only
      exact Pieces.oC5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (prev m c t).2.2.2
  · have h1 : ¬t.val % 16 = 0 := by omega
    rw [outsAt0_B m c t h0 h1]; dsimp only
    exact Pieces.oB5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2

end Cert.Bimodal.Cases

end
-- ==== Proof.Payload.lean ====
/-
  The kernel body's computed values, read at an index, at the extended reals.

  Each value the body stores is a chain of layout operations (a cast between a block [1, a, b] and a matrix [a, b], a
  broadcast of a column or a row to a square) around elementwise arithmetic and one contraction. Read at one index,
  a layout operation is its operand at one index, an elementwise operation acts on the elements, and a contraction
  into the zero accumulator is the sum over the contracted axis of the products.
-/
import proofs.«117600_j36644660969672_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.Bimodal.Payload

open Cert.KernelIdeal Cert.KernelIdeal.Gen Cert.KernelIdeal.Facts₀ Idealize.ShloMosaic Idealize.ShloMosaic.ValueIdx

variable [Cert.KernelIdeal.Facts]

/-- The column accumulator stored back as a block: entry (0, r, 0) is entry (r, 0). -/
theorem pay2_apply (v : Vec Ideal S2048x1 .f32) (r : Fin 2048) :
    k0_pay2 (F := Ideal) v (ix3 (0 : Fin 1) r (0 : Fin 1)) = v (ix2 r (0 : Fin 1)) := by
  unfold k0_pay2
  exact shapeCast_ab_1ab_apply v _ 0 r 0

/-- The row accumulator stored back as a block: entry (0, 0, j) is entry (0, j). -/
theorem pay3_apply (v : Vec Ideal S1x8192 .f32) (j : Fin 8192) :
    k0_pay3 (F := Ideal) v (ix3 (0 : Fin 1) (0 : Fin 1) j) = v (ix2 (0 : Fin 1) j) := by
  unfold k0_pay3
  exact shapeCast_ab_1ab_apply v _ 0 0 j

/-- The column accumulator's initial value is zero everywhere. -/
theorem pay4_apply (y : S2048x1.Idx) : k0_pay4 (F := Ideal) y = 0 := by
  unfold k0_pay4
  rw [shapeCast_self]
  exact Ideal.ofBits_zero_f32

/-- The row accumulator's initial value is zero everywhere. -/
theorem pay5_apply (y : S1x8192.Idx) : k0_pay5 (F := Ideal) y = 0 := by
  unfold k0_pay5
  rw [shapeCast_self]
  exact Ideal.ofBits_zero_f32

/-- The row block viewed as a matrix row: entry (0, r) is entry (0, 0, r). -/
theorem pay6_apply (x3 : Vec Ideal S1x1x2048 .f32) (r : Fin 2048) :
    k0_pay6 (F := Ideal) x3 (ix2 (0 : Fin 1) r) = x3 (ix3 (0 : Fin 1) (0 : Fin 1) r) := by
  unfold k0_pay6
  exact shapeCast_1ab_ab_apply x3 _ 0 r

/-- The tile of the matrix: entry (r, cc) is tanh of the product of the column's entry r and the row's entry cc. -/
theorem pay7_apply (x0 : Vec Ideal S1x2048x1 .f32) (x1 : Vec Ideal S1x1x2048 .f32) (r cc : Fin 2048) :
    k0_pay7 (F := Ideal) x0 x1 (ix2 r cc)
      = Ideal.tanh (x0 (ix3 (0 : Fin 1) r (0 : Fin 1)) * x1 (ix3 (0 : Fin 1) (0 : Fin 1) cc)) := by
  unfold k0_pay7
  show Ideal.tanh (broadcastTo S2048x2048 (shapeCast S2048x1 x0 _) _ (ix2 r cc)
      * broadcastTo S2048x2048 (shapeCast S1x2048 x1 _) _ (ix2 r cc)) = _
  rw [broadcastTo_apply _ _ (ix2 r cc) (ix2 r (0 : Fin 1)) (fun a => match a with | ⟨0, _⟩ => rfl | ⟨1, _⟩ => rfl),
    broadcastTo_apply _ _ (ix2 r cc) (ix2 (0 : Fin 1) cc) (fun a => match a with | ⟨0, _⟩ => rfl | ⟨1, _⟩ => rfl),
    shapeCast_1ab_ab_apply, shapeCast_1ab_ab_apply]

/-- The row-sum contraction's left operand index at output (r, ·): its row coordinate is r. -/
theorem lhs8_0 (j : S2048x1.Idx) (q : dot_S2048x2048_S2048x1_S2048x1_1_0_0_1_n_n.contr.Idx) : (dot_S2048x2048_S2048x1_S2048x1_1_0_0_1_n_n.lhsIdx j q 0).val = (j 0).val := by
  unfold DotDims.lhsIdx
  rw [dif_neg (show ¬(0 : Fin S2048x2048.rank) ∈ dot_S2048x2048_S2048x1_S2048x1_1_0_0_1_n_n.lhsBatch by decide),
    dif_pos (show (0 : Fin S2048x2048.rank) ∈ dot_S2048x2048_S2048x1_S2048x1_1_0_0_1_n_n.lhsNonContracting by decide)]
  rfl

/-- The row-sum contraction's right operand index at output (·, c): its column coordinate is c. -/
theorem rhs8_1 (j : S2048x1.Idx) (q : dot_S2048x2048_S2048x1_S2048x1_1_0_0_1_n_n.contr.Idx) : (dot_S2048x2048_S2048x1_S2048x1_1_0_0_1_n_n.rhsIdx j q 1).val = (j 1).val := by
  unfold DotDims.rhsIdx
  rw [dif_neg (show ¬(1 : Fin S2048x1.rank) ∈ dot_S2048x2048_S2048x1_S2048x1_1_0_0_1_n_n.rhsBatch by decide),
    dif_pos (show (1 : Fin S2048x1.rank) ∈ dot_S2048x2048_S2048x1_S2048x1_1_0_0_1_n_n.rhsNonContracting by decide)]
  rfl

/-- The row-sum step: the column accumulator's entry r gains the tile's row r contracted against the column block. -/
theorem pay8_apply (x0 : Vec Ideal S1x2048x1 .f32) (x1 : Vec Ideal S1x1x2048 .f32) (x2 : Vec Ideal S1x2048x1 .f32)
    (acc : Vec Ideal S2048x1 .f32) (r : Fin 2048) :
    k0_pay8 (F := Ideal) x0 x1 x2 acc (ix2 r (0 : Fin 1))
      = acc (ix2 r (0 : Fin 1))
        + ∑ cc : Fin 2048, Ideal.tanh (x0 (ix3 (0 : Fin 1) r (0 : Fin 1)) * x1 (ix3 (0 : Fin 1) (0 : Fin 1) cc))
            * x2 (ix3 (0 : Fin 1) cc (0 : Fin 1)) := by
  unfold k0_pay8
  rw [shapeCast_self]
  show acc (ix2 r (0 : Fin 1))
      + FloatOps.matmul dot_S2048x2048_S2048x1_S2048x1_1_0_0_1_n_n none (k0_pay7 x0 x1) (shapeCast S2048x1 x2 _)
          (constant S2048x1 .f32 0x00000000#32) (ix2 r (0 : Fin 1)) = _
  rw [Ideal.matmul_constant_zero_apply,
    ← Equiv.sum_comp (contrEquiv1 dot_S2048x2048_S2048x1_S2048x1_1_0_0_1_n_n 2048 rfl rfl).symm]
  refine congrArg (acc (ix2 r (0 : Fin 1)) + ·) (Finset.sum_congr rfl fun k _ => ?_)
  have hk := contrEquiv1_symm_val dot_S2048x2048_S2048x1_S2048x1_1_0_0_1_n_n 2048 rfl rfl k
  have el : dot_S2048x2048_S2048x1_S2048x1_1_0_0_1_n_n.lhsIdx (ix2 r (0 : Fin 1))
      ((contrEquiv1 dot_S2048x2048_S2048x1_S2048x1_1_0_0_1_n_n 2048 rfl rfl).symm k) = ix2 r k :=
    funext fun a => Fin.ext (by
      match a with
      | ⟨0, _⟩ => exact lhs8_0 _ _
      | ⟨1, _⟩ => exact (dot_S2048x2048_S2048x1_S2048x1_1_0_0_1_n_n.lhsIdx_val_of_single rfl _ _).trans hk)
  have er : dot_S2048x2048_S2048x1_S2048x1_1_0_0_1_n_n.rhsIdx (ix2 r (0 : Fin 1))
      ((contrEquiv1 dot_S2048x2048_S2048x1_S2048x1_1_0_0_1_n_n 2048 rfl rfl).symm k) = ix2 k (0 : Fin 1) :=
    funext fun a => Fin.ext (by
      match a with
      | ⟨0, _⟩ => exact (dot_S2048x2048_S2048x1_S2048x1_1_0_0_1_n_n.rhsIdx_val_of_single rfl _ _).trans hk
      | ⟨1, _⟩ => exact rhs8_1 _ _)
  rw [el, er, pay7_apply, shapeCast_1ab_ab_apply]

/-- The column-sum contraction's left operand index at output (u, ·): its row coordinate is u. -/
theorem lhs1_0 (j : S1x2048.Idx) (q : dot_S1x2048_S2048x2048_S1x2048_1_0_0_1_n_n.contr.Idx) : (dot_S1x2048_S2048x2048_S1x2048_1_0_0_1_n_n.lhsIdx j q 0).val = (j 0).val := by
  unfold DotDims.lhsIdx
  rw [dif_neg (show ¬(0 : Fin S1x2048.rank) ∈ dot_S1x2048_S2048x2048_S1x2048_1_0_0_1_n_n.lhsBatch by decide),
    dif_pos (show (0 : Fin S1x2048.rank) ∈ dot_S1x2048_S2048x2048_S1x2048_1_0_0_1_n_n.lhsNonContracting by decide)]
  rfl

/-- The column-sum contraction's right operand index at output (·, c): its column coordinate is c. -/
theorem rhs1_1 (j : S1x2048.Idx) (q : dot_S1x2048_S2048x2048_S1x2048_1_0_0_1_n_n.contr.Idx) : (dot_S1x2048_S2048x2048_S1x2048_1_0_0_1_n_n.rhsIdx j q 1).val = (j 1).val := by
  unfold DotDims.rhsIdx
  rw [dif_neg (show ¬(1 : Fin S2048x2048.rank) ∈ dot_S1x2048_S2048x2048_S1x2048_1_0_0_1_n_n.rhsBatch by decide),
    dif_pos (show (1 : Fin S2048x2048.rank) ∈ dot_S1x2048_S2048x2048_S1x2048_1_0_0_1_n_n.rhsNonContracting by decide)]
  rfl

/-- The column-sum step: the row accumulator's entry cc gains the row block contracted against the tile's column cc. -/
theorem pay1_apply (x0 : Vec Ideal S1x2048x1 .f32) (x1 : Vec Ideal S1x1x2048 .f32) (x3 : Vec Ideal S1x1x2048 .f32)
    (acc : Vec Ideal S1x2048 .f32) (cc : Fin 2048) :
    k0_pay1 (F := Ideal) (k0_pay6 x3) (k0_pay7 x0 x1) acc (ix2 (0 : Fin 1) cc)
      = acc (ix2 (0 : Fin 1) cc)
        + ∑ r : Fin 2048, x3 (ix3 (0 : Fin 1) (0 : Fin 1) r)
            * Ideal.tanh (x0 (ix3 (0 : Fin 1) r (0 : Fin 1)) * x1 (ix3 (0 : Fin 1) (0 : Fin 1) cc)) := by
  unfold k0_pay1
  rw [shapeCast_self]
  show acc (ix2 (0 : Fin 1) cc)
      + FloatOps.matmul dot_S1x2048_S2048x2048_S1x2048_1_0_0_1_n_n none (k0_pay6 x3) (k0_pay7 x0 x1)
          (constant S1x2048 .f32 0x00000000#32) (ix2 (0 : Fin 1) cc) = _
  rw [Ideal.matmul_constant_zero_apply,
    ← Equiv.sum_comp (contrEquiv1 dot_S1x2048_S2048x2048_S1x2048_1_0_0_1_n_n 2048 rfl rfl).symm]
  refine congrArg (acc (ix2 (0 : Fin 1) cc) + ·) (Finset.sum_congr rfl fun k _ => ?_)
  have hk := contrEquiv1_symm_val dot_S1x2048_S2048x2048_S1x2048_1_0_0_1_n_n 2048 rfl rfl k
  have el : dot_S1x2048_S2048x2048_S1x2048_1_0_0_1_n_n.lhsIdx (ix2 (0 : Fin 1) cc)
      ((contrEquiv1 dot_S1x2048_S2048x2048_S1x2048_1_0_0_1_n_n 2048 rfl rfl).symm k) = ix2 (0 : Fin 1) k :=
    funext fun a => Fin.ext (by
      match a with
      | ⟨0, _⟩ => exact lhs1_0 _ _
      | ⟨1, _⟩ => exact (dot_S1x2048_S2048x2048_S1x2048_1_0_0_1_n_n.lhsIdx_val_of_single rfl _ _).trans hk)
  have er : dot_S1x2048_S2048x2048_S1x2048_1_0_0_1_n_n.rhsIdx (ix2 (0 : Fin 1) cc)
      ((contrEquiv1 dot_S1x2048_S2048x2048_S1x2048_1_0_0_1_n_n 2048 rfl rfl).symm k) = ix2 k cc :=
    funext fun a => Fin.ext (by
      match a with
      | ⟨0, _⟩ => exact (dot_S1x2048_S2048x2048_S1x2048_1_0_0_1_n_n.rhsIdx_val_of_single rfl _ _).trans hk
      | ⟨1, _⟩ => exact rhs1_1 _ _)
  rw [el, er, pay6_apply, pay7_apply]

end Cert.Bimodal.Payload

end
-- ==== Proof.Accum.lean ====
/-
  Two accumulators swept over a 4 x 4 x 4 grid, in closed form.

  Point n < 64 has coordinates (b, I, J) = (n / 16, n / 4 % 4, n % 4), J fastest. A column accumulator S0 restarts
  from zero whenever J = 0 and otherwise adds the row-tile term of (b, I, J) to what the point before left: after
  point n it is the sum of the terms of J' = 0 .. J. A row accumulator S1, read at position cc of window K, restarts
  from zero when I = J = 0; a point adds the column-tile term of (b, I) inside window J and leaves the other windows
  alone: after point n, window K holds the terms of I' = 0 .. I if the sweep of row tile I has passed window K
  (K ≤ J), and of I' = 0 .. I - 1 otherwise. Both by induction on n; only associativity of + is used.
-/
import proofs.«117600_j36644660969672_2_alg».proof.Proof.Spec

open scoped BigOperators

namespace Cert.Bimodal

theorem sum_range_congr {M : Type*} [AddCommMonoid M] (f : ℕ → M) {a b : ℕ} (h : a = b) :
    ∑ I ∈ Finset.range a, f I = ∑ I ∈ Finset.range b, f I := by subst h; rfl

theorem acc_closed {M : Type*} [AddCommMonoid M] (S0 : ℕ → Fin 2048 → M) (S1 : ℕ → Fin 8192 → M)
    (RT : ℕ → ℕ → ℕ → Fin 2048 → M) (CT : ℕ → ℕ → Fin 8192 → M)
    (a0 : ∀ n < 64, n % 4 = 0 → ∀ r, S0 n r = 0 + RT (n / 16) (n / 4 % 4) 0 r)
    (a1 : ∀ n < 64, n % 4 ≠ 0 → ∀ r, S0 n r = S0 (n - 1) r + RT (n / 16) (n / 4 % 4) (n % 4) r)
    (b0 : ∀ n < 64, n % 16 = 0 → ∀ K < 4, ∀ cc, S1 n (gi K cc)
        = if K = n % 4 then 0 + CT (n / 16) (n / 4 % 4) (gi K cc) else 0)
    (b1 : ∀ n < 64, n % 16 ≠ 0 → ∀ K < 4, ∀ cc, S1 n (gi K cc)
        = if K = n % 4 then S1 (n - 1) (gi K cc) + CT (n / 16) (n / 4 % 4) (gi K cc) else S1 (n - 1) (gi K cc)) :
    ∀ n < 64, (∀ r, S0 n r = ∑ J ∈ Finset.range (n % 4 + 1), RT (n / 16) (n / 4 % 4) J r) ∧
      (∀ K < 4, ∀ cc, S1 n (gi K cc)
        = ∑ I ∈ Finset.range (n / 4 % 4 + if K ≤ n % 4 then 1 else 0), CT (n / 16) I (gi K cc)) := by
  intro n
  induction n with
  | zero =>
    intro h
    refine ⟨fun r => ?_, fun K hK cc => ?_⟩
    · rw [a0 0 h rfl r]; simp
    · rw [b0 0 h rfl K hK cc]
      by_cases hk : K = 0
      · subst hk; simp
      · have : ¬ K ≤ 0 := by omega
        simp [hk, this]
  | succ n ih =>
    intro h
    obtain ⟨ih0, ih1⟩ := ih (by omega)
    refine ⟨fun r => ?_, fun K hK cc => ?_⟩
    · by_cases h4 : (n + 1) % 4 = 0
      · rw [a0 (n + 1) h h4 r, h4, zero_add, Finset.sum_range_one]
      · rw [a1 (n + 1) h h4 r, Nat.add_sub_cancel, ih0 r]
        have e1 : n / 16 = (n + 1) / 16 := by omega
        have e2 : n / 4 % 4 = (n + 1) / 4 % 4 := by omega
        have e3 : n % 4 + 1 = (n + 1) % 4 := by omega
        rw [e1, e2, e3, Finset.sum_range_succ]
    · by_cases h16 : (n + 1) % 16 = 0
      · rw [b0 (n + 1) h h16 K hK cc]
        have e2 : (n + 1) / 4 % 4 = 0 := by omega
        have e3 : (n + 1) % 4 = 0 := by omega
        rw [e2, e3]
        by_cases hk : K = 0
        · subst hk; simp
        · have : ¬ K ≤ 0 := by omega
          simp [hk, this]
      · rw [b1 (n + 1) h h16 K hK cc, Nat.add_sub_cancel, ih1 K hK cc]
        have e1 : n / 16 = (n + 1) / 16 := by omega
        rw [e1]
        by_cases hk : K = (n + 1) % 4
        · rw [if_pos hk]
          have hle : K ≤ (n + 1) % 4 := by omega
          rw [if_pos hle]
          have e : (n / 4 % 4 + if K ≤ n % 4 then 1 else 0) = (n + 1) / 4 % 4 := by
            split_ifs <;> omega
          rw [sum_range_congr _ e, Finset.sum_range_succ]
        · rw [if_neg hk]
          refine sum_range_congr _ ?_
          split_ifs <;> omega

end Cert.Bimodal
-- ==== Proof.Sweep.lean ====
/-
  The sweep over the grid: what the two accumulators, and with them the two output blocks, hold after every point.

  With p, q, u, v the region's four input arrays, after point t = (b, I, J) the column accumulator's entry r is the
  sum over J' ≤ J of row (I, r)'s tile sums against u, and the row accumulator's entry at position cc of window K is
  the sum of column (K, cc)'s tile sums against v over the row tiles swept so far. At the last visit of an output
  block the sums are complete: the first output block holds rowSum, the second colSum.
-/
import proofs.«117600_j36644660969672_2_alg».proof.Proof.Cases
import proofs.«117600_j36644660969672_2_alg».proof.Proof.Payload
import proofs.«117600_j36644660969672_2_alg».proof.Proof.Blocks
import proofs.«117600_j36644660969672_2_alg».proof.Proof.Accum

set_option maxRecDepth 16384

open scoped BigOperators

noncomputable section

open Idealize.ShloMosaic Idealize.ShloMosaic.TcCoe Idealize.SL.Sem

namespace Cert.Bimodal.Sweep

open Cert.KernelIdeal Cert.KernelIdeal.Gen Idealize.ShloMosaic.ValueIdx Cert.Bimodal Cert.Bimodal.Blocks

variable (m : (ℓ : Loc nD τ sig) → Buf (Elt Ideal) ℓ) (c : Dev nD)

/-- The region's four input arrays, as it finds them. -/
abbrev p : S4x8192x1.Idx → EReal := V m c main_arg0
abbrev q : S4x1x8192.Idx → EReal := V m c main_v4
abbrev u : S4x8192x1.Idx → EReal := V m c main_v12
abbrev v : S4x1x8192.Idx → EReal := V m c main_v17

/-- A batch number as a batch index (total: wrapped). -/
def bN (b : ℕ) : Fin 4 := ⟨b % 4, Nat.mod_lt _ (by norm_num)⟩

theorem bN_of (t : Fin cfg0.N) : bN (t.val / 16) = bOf t := Fin.ext (by
  have h := t.isLt; have hN : cfg0.N = 64 := N_0
  show t.val / 16 % 4 = t.val / 16; omega)

/-- The third grid coordinate of point t is t % 4. -/
theorem coord2 : ∀ t : Fin cfg0.N, ((grid0.coords t) 2).val = t.val % 4 :=
  (by decide +kernel : ∀ t : Fin grid0.N, ((grid0.coords t) 2).val = t.val % 4)

/-- The column accumulator's entry r after point n. -/
def S0 (n : ℕ) (r : Fin 2048) : EReal :=
  if h : n < cfg0.N then (outsAt0 m c n h).2.2.1 (ix2 r (0 : Fin 1)) else 0

/-- The row accumulator's entry j after point n. -/
def S1 (n : ℕ) (j : Fin 8192) : EReal :=
  if h : n < cfg0.N then (outsAt0 m c n h).2.2.2 (ix2 (0 : Fin 1) j) else 0

theorem S0_at (t : Fin cfg0.N) (r : Fin 2048) : S0 m c t.val r = (outsAt0 m c t.val t.isLt).2.2.1 (ix2 r (0 : Fin 1)) :=
  dif_pos t.isLt
theorem S1_at (t : Fin cfg0.N) (j : Fin 8192) : S1 m c t.val j = (outsAt0 m c t.val t.isLt).2.2.2 (ix2 (0 : Fin 1) j) :=
  dif_pos t.isLt
theorem S0_prev (t : Fin cfg0.N) (r : Fin 2048) : S0 m c (t.val - 1) r = (Cases.prev m c t).2.2.1 (ix2 r (0 : Fin 1)) :=
  dif_pos _
theorem S1_prev (t : Fin cfg0.N) (j : Fin 8192) : S1 m c (t.val - 1) j = (Cases.prev m c t).2.2.2 (ix2 (0 : Fin 1) j) :=
  dif_pos _

/-- Row (I, r)'s tile sum over column tile J, in batch b. -/
def RT (b I J : ℕ) (r : Fin 2048) : EReal := rowTile (p m c) (q m c) (u m c) (bN b) (gi I r) J

/-- Column j's tile sum over row tile I, in batch b. -/
def CT (b I : ℕ) (j : Fin 8192) : EReal := colTile (p m c) (q m c) (v m c) (bN b) I j

theorem win_emb_val (i : grid0.Coords) (x : (Pieces.win i).shape.Idx) (a : Fin 2) :
    ((Pieces.win i).emb x a).val = k0_off1 i a + 1 * (x a).val := rfl

/-- The window's position cc lies at entry (third coordinate) * 2048 + cc of the row accumulator. -/
theorem win_emb_eq (t : Fin cfg0.N) (cc : Fin 2048) :
    (Pieces.win (grid0.coords t)).emb (ix2 (0 : Fin 1) cc) = ix2 (0 : Fin 1) (gi (t.val % 4) cc) := by
  have h := t.isLt; have hN : cfg0.N = 64 := N_0
  funext a
  apply Fin.ext
  rw [win_emb_val]
  match a with
  | ⟨0, _⟩ =>
    have h0 : k0_off1 (grid0.coords t) 0 = 0 := congrFun (Gen.k0_off1_eq (grid0.coords t)) 0
    show k0_off1 (grid0.coords t) 0 + 1 * 0 = 0
    rw [h0]
  | ⟨1, _⟩ =>
    have h1 : k0_off1 (grid0.coords t) 1 = 2048 * ((grid0.coords t) 2).val := congrFun (Gen.k0_off1_eq (grid0.coords t)) 1
    show k0_off1 (grid0.coords t) 1 + 1 * cc.val = (gi (t.val % 4) cc).val
    rw [h1, coord2 t, gi_val _ (by omega)]
    omega

/-! ## The four step facts -/

theorem step_a0 (t : Fin cfg0.N) (h0 : t.val % 4 = 0) (r : Fin 2048) :
    S0 m c t.val r = 0 + RT m c (t.val / 16) (t.val / 4 % 4) 0 r := by
  rw [S0_at]
  refine (congrFun (Cases.col_reset m c t h0) (ix2 r (0 : Fin 1))).trans ?_
  refine (Payload.pay8_apply (iblk m c 0 t) (iblk m c 1 t) (iblk m c 2 t) (k0_pay4 (F := Ideal)) r).trans ?_
  rw [Payload.pay4_apply]
  unfold RT rowTile mat
  refine congrArg (fun s => (0 : EReal) + s) (Finset.sum_congr rfl fun cc _ => ?_)
  rw [iblk0_at m c t r, iblk1_at m c t cc, iblk2_at m c t cc, h0, bN_of]

theorem step_a1 (t : Fin cfg0.N) (h0 : t.val % 4 ≠ 0) (r : Fin 2048) :
    S0 m c t.val r = S0 m c (t.val - 1) r + RT m c (t.val / 16) (t.val / 4 % 4) (t.val % 4) r := by
  rw [S0_at, S0_prev]
  refine (congrFun (Cases.col_carry m c t h0) (ix2 r (0 : Fin 1))).trans ?_
  refine (Payload.pay8_apply (iblk m c 0 t) (iblk m c 1 t) (iblk m c 2 t) (Cases.prev m c t).2.2.1 r).trans ?_
  unfold RT rowTile mat
  refine congrArg (fun s => (Cases.prev m c t).2.2.1 (ix2 r (0 : Fin 1)) + s) (Finset.sum_congr rfl fun cc _ => ?_)
  rw [iblk0_at m c t r, iblk1_at m c t cc, iblk2_at m c t cc, bN_of]

theorem hit_sum (t : Fin cfg0.N) (cc : Fin 2048) (x0 : Vec Ideal S1x2048x1 .f32) (x1 x3 : Vec Ideal S1x1x2048 .f32)
    (e0 : x0 = iblk m c 0 t) (e1 : x1 = iblk m c 1 t) (e3 : x3 = iblk m c 3 t) :
    ∑ r : Fin 2048, x3 (ix3 (0 : Fin 1) (0 : Fin 1) r)
        * Ideal.tanh (x0 (ix3 (0 : Fin 1) r (0 : Fin 1)) * x1 (ix3 (0 : Fin 1) (0 : Fin 1) cc))
      = CT m c (t.val / 16) (t.val / 4 % 4) (gi (t.val % 4) cc) := by
  subst e0 e1 e3
  unfold CT colTile mat
  refine Finset.sum_congr rfl fun r _ => ?_
  rw [iblk3_at m c t r, iblk0_at m c t r, iblk1_at m c t cc, bN_of]

theorem hy_hit (t : Fin cfg0.N) (cc : Fin 2048) :
    ((ix2 (0 : Fin 1) (gi (t.val % 4) cc) : S1x8192.Idx) 1).val = 2048 * ((grid0.coords t) 2).val + cc.val := by
  rw [coord2 t]
  show (gi (t.val % 4) cc).val = _
  rw [gi_val _ (by omega)]
  omega

theorem hy_miss (t : Fin cfg0.N) (K : ℕ) (hK : K < 4) (hk : K ≠ t.val % 4) (cc : Fin 2048) :
    ((ix2 (0 : Fin 1) (gi K cc) : S1x8192.Idx) 1).val < 2048 * ((grid0.coords t) 2).val
      ∨ 2048 * ((grid0.coords t) 2).val + 2048 ≤ ((ix2 (0 : Fin 1) (gi K cc) : S1x8192.Idx) 1).val := by
  rw [coord2 t]
  show (gi K cc).val < _ ∨ _ ≤ (gi K cc).val
  rw [gi_val K hK]
  have := cc.isLt
  omega

theorem step_b0 (t : Fin cfg0.N) (h1 : t.val % 16 = 0) (K : ℕ) (hK : K < 4) (cc : Fin 2048) :
    S1 m c t.val (gi K cc) = if K = t.val % 4 then 0 + CT m c (t.val / 16) (t.val / 4 % 4) (gi K cc) else 0 := by
  rw [S1_at]
  by_cases hk : K = t.val % 4
  · subst hk
    rw [if_pos rfl]
    refine (Cases.row_hit_reset m c t h1 _ cc (hy_hit t cc)).trans ?_
    refine (Payload.pay1_apply (iblk m c 0 t) (iblk m c 1 t) (iblk m c 3 t)
      (View.ld (Val := Elt Ideal) (e' := EltTy.f32) (k0_pay5 (F := Ideal)) (Pieces.win (grid0.coords t))) cc).trans ?_
    have z : View.ld (Val := Elt Ideal) (e' := EltTy.f32) (k0_pay5 (F := Ideal)) (Pieces.win (grid0.coords t)) (ix2 (0 : Fin 1) cc) = 0 := by
      show k0_pay5 (F := Ideal) ((Pieces.win (grid0.coords t)).emb (ix2 (0 : Fin 1) cc)) = 0
      exact Payload.pay5_apply _
    exact congrArg₂ (fun a s => a + s) z (hit_sum m c t cc (iblk m c 0 t) (iblk m c 1 t) (iblk m c 3 t) rfl rfl rfl)
  · rw [if_neg hk]
    exact (Cases.row_miss_reset m c t h1 _ (hy_miss t K hK hk cc)).trans (Payload.pay5_apply _)

theorem step_b1 (t : Fin cfg0.N) (h1 : t.val % 16 ≠ 0) (K : ℕ) (hK : K < 4) (cc : Fin 2048) :
    S1 m c t.val (gi K cc) = if K = t.val % 4 then S1 m c (t.val - 1) (gi K cc) + CT m c (t.val / 16) (t.val / 4 % 4) (gi K cc)
      else S1 m c (t.val - 1) (gi K cc) := by
  rw [S1_at, S1_prev]
  by_cases hk : K = t.val % 4
  · subst hk
    rw [if_pos rfl]
    refine (Cases.row_hit_carry m c t h1 _ cc (hy_hit t cc)).trans ?_
    refine (Payload.pay1_apply (iblk m c 0 t) (iblk m c 1 t) (iblk m c 3 t)
      (View.ld (Cases.prev m c t).2.2.2 (Pieces.win (grid0.coords t))) cc).trans ?_
    have z : View.ld (Cases.prev m c t).2.2.2 (Pieces.win (grid0.coords t)) (ix2 (0 : Fin 1) cc)
        = (Cases.prev m c t).2.2.2 (ix2 (0 : Fin 1) (gi (t.val % 4) cc)) := by
      show (Cases.prev m c t).2.2.2 ((Pieces.win (grid0.coords t)).emb (ix2 (0 : Fin 1) cc)) = _
      rw [win_emb_eq t cc]
    exact congrArg₂ (fun a s => a + s) z (hit_sum m c t cc (iblk m c 0 t) (iblk m c 1 t) (iblk m c 3 t) rfl rfl rfl)
  · rw [if_neg hk]
    exact Cases.row_miss_carry m c t h1 _ (hy_miss t K hK hk cc)

/-! ## The closed forms, and the two output blocks at their last visit -/

theorem N64 : cfg0.N = 64 := N_0

theorem sweep (n : ℕ) (hn : n < 64) :
    (∀ r, S0 m c n r = ∑ J ∈ Finset.range (n % 4 + 1), RT m c (n / 16) (n / 4 % 4) J r) ∧
    (∀ K < 4, ∀ cc, S1 m c n (gi K cc)
      = ∑ I ∈ Finset.range (n / 4 % 4 + if K ≤ n % 4 then 1 else 0), CT m c (n / 16) I (gi K cc)) :=
  acc_closed (S0 m c) (S1 m c) (RT m c) (CT m c)
    (fun n hn h0 r => step_a0 m c ⟨n, by rw [N64]; exact hn⟩ h0 r)
    (fun n hn h0 r => step_a1 m c ⟨n, by rw [N64]; exact hn⟩ h0 r)
    (fun n hn h1 K hK cc => step_b0 m c ⟨n, by rw [N64]; exact hn⟩ h1 K hK cc)
    (fun n hn h1 K hK cc => step_b1 m c ⟨n, by rw [N64]; exact hn⟩ h1 K hK cc) n hn

/-- Every position on the axis of 8192 is position cc of some tile K < 4. -/
theorem exists_gi (j : Fin 8192) : ∃ K, K < 4 ∧ ∃ cc : Fin 2048, j = gi K cc :=
  ⟨j.val / 2048, by have := j.isLt; omega, ⟨j.val % 2048, Nat.mod_lt _ (by norm_num)⟩, Fin.ext (by
    have := j.isLt
    rw [gi_val _ (by omega)]
    show j.val = j.val / 2048 * 2048 + j.val % 2048
    omega)⟩

/-- At the last column tile of a row tile the first output block holds the whole row sums. -/
theorem out4_last (t : Fin cfg0.N) (h3 : t.val % 4 = 3) (r : Fin 2048) :
    (outsAt0 m c t.val t.isLt).1 (ix3 (0 : Fin 1) r (0 : Fin 1))
      = rowSum (p m c) (q m c) (u m c) (bOf t) (gi (t.val / 4 % 4) r) := by
  have hN : t.val < 64 := by have h := t.isLt; have h64 : cfg0.N = 64 := N_0; omega
  rw [congrFun (Cases.out4_eq m c t) _, Payload.pay2_apply, ← S0_at, (sweep m c t.val hN).1 r, h3, rowSum_eq_tiles]
  unfold RT
  rw [bN_of]

/-- At the last point of a batch the second output block holds the whole column sums. -/
theorem out5_last (t : Fin cfg0.N) (h15 : t.val % 16 = 15) (j : Fin 8192) :
    (outsAt0 m c t.val t.isLt).2.1 (ix3 (0 : Fin 1) (0 : Fin 1) j)
      = colSum (p m c) (q m c) (v m c) (bOf t) j := by
  have hN : t.val < 64 := by have h := t.isLt; have h64 : cfg0.N = 64 := N_0; omega
  obtain ⟨K, hK, cc, rfl⟩ := exists_gi j
  rw [congrFun (Cases.out5_eq m c t) _, Payload.pay3_apply, ← S1_at, (sweep m c t.val hN).2 K hK cc, colSum_eq_tiles]
  have e : (t.val / 4 % 4 + if K ≤ t.val % 4 then 1 else 0) = 4 := by
    have h4 : t.val % 4 = 3 := by omega
    have h5 : t.val / 4 % 4 = 3 := by omega
    rw [h4, h5, if_pos (by omega)]
  rw [sum_range_congr _ e]
  unfold CT
  rw [bN_of]

end Cert.Bimodal.Sweep

end
-- ==== Proof.KernelRun.lean ====
/-
  The kernel program's run, read: where every execution ends.

  The frame run of the program leaves each array the pipeline stages at what the write-backs computed and every other
  array as the host lines after the region leave it. Read at the two result arrays and the twelve arguments, this is the
  raw post of the run; with the two pipeline results known to be the whole row sums and the whole column sums, the two
  result arrays are the shared softmax tail applied to the two logit arrays of the specification.
-/
import proofs.«117600_j36644660969672_2_alg».proof.Proof.Gen.KernelIdeal.Frame
import proofs.«117600_j36644660969672_2_alg».proof.Proof.Spec
import proofs.«117600_j36644660969672_2_alg».proof.Proof.KernelHost
import proofs.«117600_j36644660969672_2_alg».proof.Proof.Final
import proofs.«117600_j36644660969672_2_alg».proof.Proof.Claims
import proofs.«117600_j36644660969672_2_alg».proof.Proof.Sweep
import Idealize.ShloMosaic.Lib.Pipeline.Value
import Idealize.ShloMosaic.Lib.ValueIdx

open scoped BigOperators

noncomputable section

namespace Cert.Bimodal.KernelRun

open Cert.KernelIdeal Cert.KernelIdeal.Gen Idealize.ShloMosaic Idealize.ShloMosaic.TcCoe Idealize.SL.Sem
  Idealize.ShloMosaic.ValueIdx Cert.Bimodal
open Idealize.ShloMosaic.Pipeline (Dat)

variable (m : (ℓ : Loc nD τ sig) → Buf (Elt Ideal) ℓ) (ρ : Dev nD → PrngReg)

/-- Every execution of the program ends with the two result arrays at what the host lines after the region compute
    from the pipeline's results, and the twelve arguments unchanged. -/
theorem run_raw : θ_run defs (onTc (τ := τ) (main (F := Ideal))) ⟨m, fun _ => 0, ρ⟩ (fun r => ∀ c : Dev nD,
      r.2.mem ((c.tc : Thread nD τ).loc main_v59) = Pipeline.afterTail₀ cfgs (dats m) 0 (V0 m) [hostOps1] c main_v59
      ∧ r.2.mem ((c.tc : Thread nD τ).loc main_v61) = Pipeline.afterTail₀ cfgs (dats m) 0 (V0 m) [hostOps1] c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).2 main_v59 (Pipeline.mem_restRefs_of main_v59 (by decide) (by decide)),
      (h c).2 main_v61 (Pipeline.mem_restRefs_of main_v61 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

section
variable (c : Dev nD)
open Cert.Bimodal.KernelHost Cert.Bimodal.Final

/-- The array under the first result's softmax is the specification's first logit array: the region finds the first
    input itself, the row q and the column u, and leaves every row's whole sum. -/
theorem logit1_eq :
    (fun i : S4x8192x1.Idx => Ideal.tanh ((x0 m c i * w1 m c + b1 m c) + G4 m c i) * w3 m c + b3 m c)
      = logit1 (x0 m c) (x1 m c) (w0 m c) (b0 m c) (w1 m c) (b1 m c) (w2 m c) (b2 m c) (w3 m c) (b3 m c) := by
  funext i
  show Ideal.tanh ((x0 m c i * w1 m c + b1 m c)
      + rowSum (V m c main_arg0) (V m c main_v4) (V m c main_v12) (i 0) (i 1)) * w3 m c + b3 m c = _
  rw [V_main_arg0, V_v4, V_v12]
  rfl

/-- The array under the second result's softmax is the specification's second logit array: the region finds the first
    input itself, the row q and the row v, and leaves every column's whole sum. -/
theorem logit2_eq :
    (fun i : S4x8192x1.Idx => Ideal.tanh ((x1 m c i * w2 m c + b2 m c) + G5 m c (ix3 (i 0) (0 : Fin 1) (i 1))) * w4 m c + b4 m c)
      = logit2 (x0 m c) (x1 m c) (w0 m c) (b0 m c) (w1 m c) (b1 m c) (w2 m c) (b2 m c) (w4 m c) (b4 m c) := by
  funext i
  show Ideal.tanh ((x1 m c i * w2 m c + b2 m c)
      + colSum (V m c main_arg0) (V m c main_v4) (V m c main_v17) (i 0) (i 1)) * w4 m c + b4 m c = _
  rw [V_main_arg0, V_v4, V_v17]
  rfl

end

/-- The run's post from the raw post, given the two results after the host lines as the two tails. -/
theorem kernel_run_of
    (hres1 : ∀ c : Dev nD, Pipeline.afterTail₀ cfgs (dats m) 0 (V0 m) [hostOps1] c main_v59 = Claims.res1 m c)
    (hres2 : ∀ c : Dev nD, Pipeline.afterTail₀ cfgs (dats m) 0 (V0 m) [hostOps1] c main_v61 = Claims.res2 m c) :
    θ_run defs (onTc (τ := τ) (main (F := Ideal))) ⟨m, fun _ => 0, ρ⟩ (Claims.KernelPost m) :=
  (θ_run defs _ _).mono (fun _ h c => ⟨(h c).1.trans (hres1 c), (h c).2.1.trans (hres2 c), (h c).2.2⟩) (run_raw m ρ)

section
variable (c : Dev nD)
open Cert.Bimodal.KernelHost Cert.Bimodal.Final

/-- The first result after the host lines is the tail of the first logit array, once the pipeline's first result is
    every row's whole sum. -/
theorem hres1 (h4 : (dats m 0 c).arrAt 4 cfg0.N = G4 m c) :
    Pipeline.afterTail₀ cfgs (dats m) 0 (V0 m) [hostOps1] c main_v59 = Claims.res1 m c :=
  (KernelHost.res1 m c (G4 m c) h4).trans (congrArg (fun a => Claims.ktail a (Claims.kx0 m c)) (logit1_eq m c))

/-- The second result after the host lines is the tail of the second logit array, once the pipeline's second result is
    every column's whole sum. -/
theorem hres2 (h5 : (dats m 0 c).arrAt 5 cfg0.N = G5 m c) :
    Pipeline.afterTail₀ cfgs (dats m) 0 (V0 m) [hostOps1] c main_v61 = Claims.res2 m c :=
  (KernelHost.res2 m c (G5 m c) h5).trans (congrArg (fun a => Claims.ktail a (Claims.kx1 m c)) (logit2_eq m c))

end

/-- Every execution of the kernel program ends with the two results at the softmax tails of the specification's two
    logit arrays, and the twelve arguments unchanged. -/
theorem kernel_run :
    θ_run defs (onTc (τ := τ) (main (F := Ideal))) ⟨m, fun _ => 0, ρ⟩ (Claims.KernelPost m) :=
  kernel_run_of m ρ
    (fun c => hres1 m c (Final.final4 m c (Sweep.out4_last m c)))
    (fun c => hres2 m c (Final.final5 m c (Sweep.out5_last m c)))

end Cert.Bimodal.KernelRun

end
-- ==== Proof.lean ====
/-
  The kernel and its reference compute the same two arrays, as extended reals.

  Both take two inputs m1, m2 of shape [4, 8192, 1] and ten scalars. Per batch b they form, implicitly or explicitly,
  the matrix  M b i j = tanh (m1 b i * (m2 b j * w0 + b0))  and contract it twice:
      S1 b i = sum over j of M b i j * (m2 b j * w2 + b2),      S2 b j = sum over i of (m1 b i * w1 + b1) * M b i j,
  then apply one and the same tail: tanh ((m1 * w1 + b1) + S1) * w3 + b3 and tanh ((m2 * w2 + b2) + S2) * w4 + b4 each
  go through a softmax along the axis of 8192 and are multiplied by m1 resp. m2.

  The reference materializes M and takes each sum whole (its first contraction with the factors in the other order).
  The kernel never forms M: on a 4 x 4 x 4 grid it forms one 2048 x 2048 tile at a time, adds the tile's partial row
  sums to a column accumulator that restarts with every row tile, adds its partial column sums to one window of a
  row accumulator that restarts with every batch, and copies the accumulators to the output blocks, which are written
  back at their last visit. So the kernel's sums are the reference's, regrouped: four tiles of 2048 in place of one
  range of 8192, starting from zero, factors commuted. On the extended reals addition is commutative and associative
  and multiplication commutative, which is all this uses: no distributivity, no cancellation, hence nothing about
  finiteness of the inputs. The modules:
    Spec      the sums, the tile sums, and that four tile sums make the whole sum;
    Tail      the shared softmax tail, kept closed;
    RefValue  the reference's two results are the tail of the two logit arrays of Spec;
    Payload   the kernel body's arithmetic read at an index;
    Pieces, Cases   what one run of the body leaves in the accumulators and output blocks, in each of its three
              cases (both accumulators restarted / only the column one / neither), read at a grid point;
    Blocks    the elements of the input blocks at a grid point;
    Accum, Sweep    the accumulators after every point in closed form, by induction over the 64 points;
    Final     the output arrays after the last write-backs; KernelHost the host operations around the region;
    KernelRun, Claims   the kernel's run read as the same tail of the same logits, and the five claims.
  The word-level kernel and its idealization are the same text (no rewrite was applied), so that conjunct is trivial;
  the three frames are the generated ones (the reference's is its generated run with the results dropped).
-/
import proofs.«117600_j36644660969672_2_alg».proof.Defs
import proofs.«117600_j36644660969672_2_alg».proof.Proof.Gen.Kernel
import proofs.«117600_j36644660969672_2_alg».proof.Proof.Gen.Kernel.Skeleton
import proofs.«117600_j36644660969672_2_alg».proof.Proof.Gen.Kernel.Launch
import proofs.«117600_j36644660969672_2_alg».proof.Proof.Gen.Kernel.Points
import proofs.«117600_j36644660969672_2_alg».proof.Proof.Gen.Kernel.Frame
import proofs.«117600_j36644660969672_2_alg».proof.Proof.Gen.KernelIdeal
import proofs.«117600_j36644660969672_2_alg».proof.Proof.Gen.KernelIdeal.Skeleton
import proofs.«117600_j36644660969672_2_alg».proof.Proof.Gen.KernelIdeal.Launch
import proofs.«117600_j36644660969672_2_alg».proof.Proof.Gen.KernelIdeal.Points
import proofs.«117600_j36644660969672_2_alg».proof.Proof.Gen.KernelIdeal.Frame
import proofs.«117600_j36644660969672_2_alg».proof.Proof.Gen.ReferenceIdeal
import proofs.«117600_j36644660969672_2_alg».proof.Proof.Gen.Pre_finite_inputs
import proofs.«117600_j36644660969672_2_alg».proof.Proof.RefFrame
import proofs.«117600_j36644660969672_2_alg».proof.Proof.Claims
import proofs.«117600_j36644660969672_2_alg».proof.Proof.KernelRun
import Idealize.ShloMosaic.Adequacy
import Idealize.ShloMosaic.Init

noncomputable section

namespace Cert.Proof

open Idealize.ShloMosaic Idealize.SL.Sem

/-- The five claims: the three frames, the trivial idealization conjunct, and the equality of the two programs' results
    at the ideal instance, the kernel's run read through the sweep of its grid. -/
theorem claim : Cert.Claim :=
  Cert.Bimodal.Claims.claim_of fun m ρ => Cert.Bimodal.KernelRun.kernel_run m ρ

end Cert.Proof

end
